-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S512x16 : Shape := ⟨2, ![512, 16]⟩
abbrev S16 : Shape := ⟨1, ![16]⟩
abbrev S16x1 : Shape := ⟨2, ![16, 1]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  main_v18

def fn {F : FTy → Type} [FloatOps F] (main_arg0 : FVec F S2048x64x512 .f32) (main_arg1 : FVec F S512x16 .f32) (main_arg2 : FVec F S16 .f32) (main_arg3 : FVec F S16x1 .f32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_v13 main_v16
-- ==== Kernel.lean ====
abbrev S2048x64x512 : Shape := ⟨3, ![2048, 64, 512]⟩
abbrev S512x16 : Shape := ⟨2, ![512, 16]⟩
abbrev S16 : Shape := ⟨1, ![16]⟩
abbrev S16x1 : Shape := ⟨2, ![16, 1]⟩
abbrev S1x16 : Shape := ⟨2, ![1, 16]⟩
abbrev S2048x512 : Shape := ⟨2, ![2048, 512]⟩
abbrev S2048x64 : Shape := ⟨2, ![2048, 64]⟩
abbrev S64x64x512 : Shape := ⟨3, ![64, 64, 512]⟩
abbrev S64x512 : Shape := ⟨2, ![64, 512]⟩
abbrev S64x64 : Shape := ⟨2, ![64, 64]⟩
abbrev S64x64x1 : Shape := ⟨3, ![64, 64, 1]⟩
abbrev S4096x512 : Shape := ⟨2, ![4096, 512]⟩
abbrev S4096x16 : Shape := ⟨2, ![4096, 16]⟩
abbrev S4096x1 : Shape := ⟨2, ![4096, 1]⟩
abbrev S64x1 : Shape := ⟨2, ![64, 1]⟩
abbrev S64x1x1 : Shape := ⟨3, ![64, 1, 1]⟩
abbrev S64x16x512 : Shape := ⟨3, ![64, 16, 512]⟩
abbrev S64x16x1 : Shape := ⟨3, ![64, 16, 1]⟩
abbrev S2048x64x1 : Shape := ⟨3, ![2048, 64, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x64x512, .f32⟩
  | .hbm, ⟨1, _⟩ => ⟨S512x16, .f32⟩
  | .hbm, ⟨2, _⟩ => ⟨S16, .f32⟩
  | .hbm, ⟨3, _⟩ => ⟨S16x1, .f32⟩
  | .hbm, ⟨4, _⟩ => ⟨S512x16, .bf16⟩
  | .hbm, ⟨5, _⟩ => ⟨S16x1, .bf16⟩
  | .hbm, ⟨6, _⟩ => ⟨S1x16, .f32⟩
  | .hbm, ⟨7, _⟩ => ⟨S2048x512, .f32⟩
  | .hbm, ⟨8, _⟩ => ⟨S2048x64, .f32⟩
  | .hbm, ⟨9, _⟩ => ⟨S2048x64x1, .f32⟩
  | .local _ .vmem, ⟨0, _⟩ => ⟨S64x64x512, .f32⟩
  | .local _ .vmem, ⟨1, _⟩ => ⟨S64x64x512, .f32⟩
  | .local _ .vmem, ⟨2, _⟩ => ⟨S512x16, .bf16⟩
  | .local _ .vmem, ⟨3, _⟩ => ⟨S1x16, .f32⟩
  | .local _ .vmem, ⟨4, _⟩ => ⟨S16x1, .bf16⟩
  | .local _ .vmem, ⟨5, _⟩ => ⟨S64x512, .f32⟩
  | .local _ .vmem, ⟨6, _⟩ => ⟨S64x512, .f32⟩
  | .local _ .vmem, ⟨7, _⟩ => ⟨S64x64, .f32⟩
  | .local _ .vmem, ⟨8, _⟩ => ⟨S64x64, .f32⟩
  | .local _ .vmem, ⟨9, _⟩ => ⟨S64x64x1, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v31 : BitVec 32 := Scalar.addi c0_i32 c4_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v34 : BitVec 32 := Scalar.muli arg8 c16_i32
  v34
def k0_off1 (k0_t1 : Fin k0_t1_loop.trips) : Fin 3 → Nat :=
  let c0_20 : Index := 0#32
  let c0_i32 : BitVec 32 := 0#32
  let c1_i32 : BitVec 32 := 1#32
  let arg8 : BitVec 32 := Scf.iv c0_i32 c1_i32 k0_t1
  let c16_i32 : BitVec 32 := 16#32
  let v34 : BitVec 32 := Scalar.muli arg8 c16_i32
  let v35 : BitVec 32 := v34
  let v36 : Index := Scalar.indexCast v35
  let c0_21 : Index := 0#32
  ![0, v36.toNat, 0]
def k0_off2 (k0_t1 : Fin k0_t1_loop.trips) : Fin 3 → Nat :=
  let c0_22 : Index := 0#32
  let c0_i32 : BitVec 32 := 0#32
  let c1_i32 : BitVec 32 := 1#32
  let arg8 : BitVec 32 := Scf.iv c0_i32 c1_i32 k0_t1
  let c16_i32 : BitVec 32 := 16#32
  let v34 : BitVec 32 := Scalar.muli arg8 c16_i32
  let v35 : BitVec 32 := v34
  let v38 : Index := Scalar.indexCast v35
  let c0_23 : Index := 0#32
  ![0, v38.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S16_S1x16 : S16.ShapeCasts S1x16
  inb_S64x64x512_S64x64x512_0_0_0 : ∀ a, (![0, 0, 0] : Fin 3 → Nat) a + S64x64x512.size a ≤ S64x64x512.size a
  h_S64x64x512 : 0 < S64x64x512.numel
  shapeCasts_S64x64x512_S4096x512 : S64x64x512.ShapeCasts S4096x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S4096x1_S64x64x1 : S4096x1.ShapeCasts S64x64x1
  reduces_S64x64x1_S64x1 : S64x64x1.Reduces [1] S64x1
  shapeCasts_S64x1_S64x1x1 : S64x1.ShapeCasts S64x1x1
  broadcasts_S64x1x1_S64x64x1 : S64x1x1.Broadcasts S64x64x1
  inb_S64x64x1_S64x64x1_0_0_0 : ∀ a, (![0, 0, 0] : Fin 3 → Nat) a + S64x64x1.size a ≤ S64x64x1.size a
  h_S64x64x1 : 0 < S64x64x1.numel
  shapeCasts_S64x64x1_S64x64x1 : S64x64x1.ShapeCasts S64x64x1
  shapeCasts_S64x64x1_S64x64 : S64x64x1.ShapeCasts S64x64
  inb_S64x64_S64x64_0_0 : ∀ a, (![0, 0] : Fin 2 → Nat) a + S64x64.size a ≤ S64x64.size a
  h_S64x64 : 0 < S64x64.numel
  h_S64x16x512 : 0 < S64x16x512.numel
  h_S64x16x1 : 0 < S64x16x1.numel
  broadcasts_S64x16x1_S64x16x512 : S64x16x1.Broadcasts S64x16x512
  reduces_S64x16x512_S64x512 : S64x16x512.Reduces [1] S64x512
  inb_S64x512_S64x512_0_0 : ∀ a, (![0, 0] : Fin 2 → Nat) a + S64x512.size a ≤ S64x512.size a
  h_S64x512 : 0 < S64x512.numel
  shapeCasts_S2048x64_S2048x64x1 : S2048x64.ShapeCasts S2048x64x1
  dot_S4096x512_S512x16_S4096x16_1_0_0_1_n_n_wf : DotDims.WF S4096x512 S512x16 S4096x16 [1] [0] [0] [1] [] []
  dot_S4096x16_S16x1_S4096x1_1_0_0_1_n_n_wf : DotDims.WF S4096x16 S16x1 S4096x1 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S64x16x512.size a ≤ S64x64x512.size a
  k0_off2_inb : ∀ k0_t1 : Fin k0_t1_loop.trips, ∀ a, (k0_off2 k0_t1) a + S64x16x1.size a ≤ S64x64x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x512.size a ≤ S2048x64x512.size a
  hwx0_0 : ∀ i : grid0.Coords, EltTy.bits .f32 = 32 ∨ (Rect.block (s := S2048x64x512) S64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .bf16 = 32 ∨ (Rect.block (s := S512x16) S512x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .bf16 = 32 ∨ (Rect.block (s := S16x1) S16x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S2048x512.size a
  hwx0_4 : ∀ i : grid0.Coords, EltTy.bits .f32 = 32 ∨ (Rect.block (s := S2048x512) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S2048x64.size a
  hwx0_5 : ∀ i : grid0.Coords, EltTy.bits .f32 = 32 ∨ (Rect.block (s := S2048x64) S64x64.size (cc0_transform_5 i) (hinb0_5 i)).WholeWords (EltTy.packing .f32)

variable [Facts₀]

def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x512 : Shape := ⟨3, ![2048, 64, 512]⟩
abbrev S512x16 : Shape := ⟨2, ![512, 16]⟩
abbrev S16 : Shape := ⟨1, ![16]⟩
abbrev S16x1 : Shape := ⟨2, ![16, 1]⟩
abbrev S2048x64x16 : Shape := ⟨3, ![2048, 64, 16]⟩
abbrev S1x1x16 : Shape := ⟨3, ![1, 1, 16]⟩
abbrev S2048x64x1 : Shape := ⟨3, ![2048, 64, 1]⟩
abbrev S_ : Shape := ⟨0, ![]⟩
abbrev S2048x1 : Shape := ⟨2, ![2048, 1]⟩
abbrev S2048x1x1 : Shape := ⟨3, ![2048, 1, 1]⟩
abbrev S2048x512 : Shape := ⟨2, ![2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S512x16, .f32⟩
  | .hbm, ⟨2, _⟩ => ⟨S16, .f32⟩
  | .hbm, ⟨3, _⟩ => ⟨S16x1, .f32⟩
  | .hbm, ⟨4, _⟩ => ⟨S2048x64x16, .f32⟩
  | .hbm, ⟨5, _⟩ => ⟨S1x1x16, .f32⟩
  | .hbm, ⟨6, _⟩ => ⟨S2048x64x16, .f32⟩
  | .hbm, ⟨7, _⟩ => ⟨S2048x64x16, .f32⟩
  | .hbm, ⟨8, _⟩ => ⟨S2048x64x16, .f32⟩
  | .hbm, ⟨9, _⟩ => ⟨S2048x64x1, .f32⟩
  | .hbm, ⟨10, _⟩ => ⟨S_, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1x1, .f32⟩
  | .hbm, ⟨16, _⟩ => ⟨S2048x64x1, .f32⟩
  | .hbm, ⟨17, _⟩ => ⟨S2048x64x1, .f32⟩
  | .hbm, ⟨18, _⟩ => ⟨S2048x64x1, .f32⟩
  | .hbm, ⟨19, _⟩ => ⟨S_, .f32⟩
  | .hbm, ⟨20, _⟩ => ⟨S2048x1, .f32⟩
  | .hbm, ⟨21, _⟩ => ⟨S2048x1x1, .f32⟩
  | .hbm, ⟨22, _⟩ => ⟨S2048x64x1, .f32⟩
  | .hbm, ⟨23, _⟩ => ⟨S2048x64x1, .f32⟩
  | .hbm, ⟨24, _⟩ => ⟨S2048x64x512, .f32⟩
  | .hbm, ⟨25, _⟩ => ⟨S2048x64x512, .f32⟩
  | .hbm, ⟨26, _⟩ => ⟨S_, .f32⟩
  | .hbm, ⟨27, _⟩ => ⟨S2048x512, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S2048x64x16_0_1_2 : S1x1x16.BroadcastsInDim S2048x64x16 (![0, 1, 2] : Fin 3 → Fin S2048x64x16.rank)
  reducesTo_S2048x64x1_S2048x1_d1 : S2048x64x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x64x1_0_1_2 : S2048x1x1.BroadcastsInDim S2048x64x1 (![0, 1, 2] : Fin 3 → Fin S2048x64x1.rank)
  bcast_S2048x64x1_S2048x64x512_0_1_2 : S2048x64x1.BroadcastsInDim S2048x64x512 (![0, 1, 2] : Fin 3 → Fin S2048x64x512.rank)
  reducesTo_S2048x64x512_S2048x512_d1 : S2048x64x512.ReducesTo [1] S2048x512
  dot_S2048x64x512_S512x16_S2048x64x16_2_0_01_1_n_n_wf : DotDims.WF S2048x64x512 S512x16 S2048x64x16 [2] [0] [0, 1] [1] [] []
  dot_S2048x64x16_S16x1_S2048x64x1_2_0_01_1_n_n_wf : DotDims.WF S2048x64x16 S16x1 S2048x64x1 [2] [0] [0, 1] [1] [] []

variable [Facts₀]

def dot_S2048x64x512_S512x16_S2048x64x16_2_0_01_1_n_n : DotDims S2048x64x512 S512x16 S2048x64x16 where
  lhsContracting := [2]
  rhsContracting := [0]
  lhsNonContracting := [0, 1]
  rhsNonContracting := [1]
  lhsBatch := []
  rhsBatch := []
  wf := dot_S2048x64x512_S512x16_S2048x64x16_2_0_01_1_n_n_wf
def dot_S2048x64x16_S16x1_S2048x64x1_2_0_01_1_n_n : DotDims S2048x64x16 S16x1 S2048x64x1 where
  lhsContracting := [2]
  rhsContracting := [0]
  lhsNonContracting := [0, 1]
  rhsNonContracting := [1]
  lhsBatch := []
  rhsBatch := []
  wf := dot_S2048x64x16_S16x1_S2048x64x1_2_0_01_1_n_n_wf

class Facts : Prop extends Facts₀ where

variable [Facts]
-- ==== Proof.Spec.lean ====
/-
  The specification: attention pooling of one sequence, as exact arithmetic on the extended reals.

  A sequence is 64 tokens of width 512, `x n d`. Each token gets a score from a two-layer scorer: a hidden layer
  of 16 units, `tanh (∑ d, x n d · W1 d h + b1 h)`, and a linear read-out `∑ h, hidden n h · W2 h`. The scores of the
  sequence's tokens go through a softmax over the tokens — subtract the largest score, exponentiate, divide by the
  total — which gives each token its weight; the pooled vector is the weighted sum of the tokens,
  `pooled d = ∑ n, weight n · x n d`. Both programs compute, for each of the 2048 sequences of the input, the weights
  and the pooled vector; nothing couples two sequences, so the specification is stated for ONE sequence.

  The one law between the two programs is also here: a sum over the 64 tokens taken in four runs of sixteen, each run
  added to a running total that starts at zero, is the sum over all 64 tokens. Addition of extended reals is
  commutative and associative (Mathlib's `EReal` is an additive commutative monoid), so no finiteness is needed.
-/
import Idealize.ShloMosaic.PureOps.Ideal
import Mathlib.Algebra.BigOperators.Fin

noncomputable section

namespace Cert.Spec

open Idealize.ShloMosaic

variable (W1 : Fin 512 → Fin 16 → EReal) (b1 : Fin 16 → EReal) (W2 : Fin 16 → EReal)

/-- Hidden unit `h` of the scorer at token `n`. -/
def hidden (x : Fin 64 → Fin 512 → EReal) (n : Fin 64) (h : Fin 16) : EReal :=
  Ideal.tanh ((∑ d : Fin 512, x n d * W1 d h) + b1 h)

/-- The score of token `n`. -/
def score (x : Fin 64 → Fin 512 → EReal) (n : Fin 64) : EReal :=
  ∑ h : Fin 16, hidden W1 b1 x n h * W2 h

/-- The largest score of the sequence, as the running maximum from −∞. -/
def top (x : Fin 64 → Fin 512 → EReal) : EReal :=
  (Finset.univ : Finset (Fin 64)).fold max ⊥ (fun n => score W1 b1 W2 x n)

/-- The exponential of a token's score less the largest. -/
def ex (x : Fin 64 → Fin 512 → EReal) (n : Fin 64) : EReal :=
  Ideal.exp (score W1 b1 W2 x n - top W1 b1 W2 x)

/-- The softmax's denominator. -/
def tot (x : Fin 64 → Fin 512 → EReal) : EReal :=
  ∑ n : Fin 64, ex W1 b1 W2 x n

/-- The weight of token `n`: its share of the total. -/
def weight (x : Fin 64 → Fin 512 → EReal) (n : Fin 64) : EReal :=
  Ideal.div (ex W1 b1 W2 x n) (tot W1 b1 W2 x)

/-- Coordinate `d` of the pooled vector: the weighted sum of the tokens. -/
def pooled (x : Fin 64 → Fin 512 → EReal) (d : Fin 512) : EReal :=
  ∑ n : Fin 64, weight W1 b1 W2 x n * x n d

/-- Token `j` of run `k` when the 64 tokens are taken in four runs of sixteen. -/
def tok (k : Fin 4) (j : Fin 16) : Fin 64 := ⟨16 * k.val + j.val, by have := k.isLt; have := j.isLt; omega⟩

/-- A sum over the 64 tokens, accumulated run by run from zero, is the sum over all tokens. -/
theorem sum_runs (g : Fin 64 → EReal) :
    ((((0 : EReal) + ∑ j : Fin 16, g (tok 0 j)) + ∑ j : Fin 16, g (tok 1 j)) + ∑ j : Fin 16, g (tok 2 j))
      + ∑ j : Fin 16, g (tok 3 j) = ∑ n : Fin 64, g n := by
  have e : ∑ n : Fin 64, g n = ∑ k : Fin 4, ∑ j : Fin 16, g (tok k j) := by
    rw [← Fintype.sum_prod_type']
    refine (Equiv.sum_comp (finProdFinEquiv (m := 4) (n := 16)) g).symm.trans ?_
    refine Finset.sum_congr rfl fun a _ => congrArg g (Fin.ext ?_)
    show a.2.val + 16 * a.1.val = 16 * a.1.val + a.2.val
    omega
  rw [e, Fin.sum_univ_four, zero_add]

end Cert.Spec

end
-- ==== Proof.Out.lean ====
/-
  The two results as functions of the four argument arrays, index by index: for sequence b of the 2048,
  `pooledOut` at (b, d) is coordinate d of its pooled vector and `weightOut` at (b, n, 0) is the weight of its token n
  (Spec.lean), the scorer's parameters read off the arrays W1 [512, 16], b1 [16], W2 [16, 1].
-/
import proofs.«160763_j32401233281111_2_alg».proof.Proof.Spec
import Idealize.ShloMosaic.Lib.ValueIdx

noncomputable section

namespace Cert.Spec

open Idealize.ShloMosaic Idealize.ShloMosaic.ValueIdx

/-- Sequence `b` of the token array. -/
def rowOf (a0 : (⟨3, ![2048, 64, 512]⟩ : Shape).Idx → EReal) (b : Fin 2048) : Fin 64 → Fin 512 → EReal :=
  fun n d => a0 (ix3 b n d)

/-- The scorer's parameters read off their arrays. -/
def w1Of (a1 : (⟨2, ![512, 16]⟩ : Shape).Idx → EReal) : Fin 512 → Fin 16 → EReal := fun d h => a1 (ix2 d h)
def b1Of (a2 : (⟨1, ![16]⟩ : Shape).Idx → EReal) : Fin 16 → EReal := fun h => a2 (ix1 h)
def w2Of (a3 : (⟨2, ![16, 1]⟩ : Shape).Idx → EReal) : Fin 16 → EReal := fun h => a3 (ix2 h (0 : Fin 1))

/-- The pooled vectors, [2048, 512]. -/
def pooledOut (a0 : (⟨3, ![2048, 64, 512]⟩ : Shape).Idx → EReal) (a1 : (⟨2, ![512, 16]⟩ : Shape).Idx → EReal)
    (a2 : (⟨1, ![16]⟩ : Shape).Idx → EReal) (a3 : (⟨2, ![16, 1]⟩ : Shape).Idx → EReal) :
    (⟨2, ![2048, 512]⟩ : Shape).Idx → EReal :=
  fun i => pooled (w1Of a1) (b1Of a2) (w2Of a3) (rowOf a0 ⟨(i 0).val, (i 0).isLt⟩) ⟨(i 1).val, (i 1).isLt⟩

/-- The weights laid out [2048, 64], as the kernel's second output block holds them before the last reshape. -/
def weightFlat (a0 : (⟨3, ![2048, 64, 512]⟩ : Shape).Idx → EReal) (a1 : (⟨2, ![512, 16]⟩ : Shape).Idx → EReal)
    (a2 : (⟨1, ![16]⟩ : Shape).Idx → EReal) (a3 : (⟨2, ![16, 1]⟩ : Shape).Idx → EReal) :
    (⟨2, ![2048, 64]⟩ : Shape).Idx → EReal :=
  fun i => weight (w1Of a1) (b1Of a2) (w2Of a3) (rowOf a0 ⟨(i 0).val, (i 0).isLt⟩) ⟨(i 1).val, (i 1).isLt⟩

/-- The weights, [2048, 64, 1]. -/
def weightOut (a0 : (⟨3, ![2048, 64, 512]⟩ : Shape).Idx → EReal) (a1 : (⟨2, ![512, 16]⟩ : Shape).Idx → EReal)
    (a2 : (⟨1, ![16]⟩ : Shape).Idx → EReal) (a3 : (⟨2, ![16, 1]⟩ : Shape).Idx → EReal) :
    (⟨3, ![2048, 64, 1]⟩ : Shape).Idx → EReal :=
  fun i => weight (w1Of a1) (b1Of a2) (w2Of a3) (rowOf a0 ⟨(i 0).val, (i 0).isLt⟩) ⟨(i 1).val, (i 1).isLt⟩

end Cert.Spec

end
-- ==== Proof.LibMaxAxis1.lean ====
/-
  A general reading lemma: at the ideal values, the maximum of a rank-3 array over its MIDDLE axis, taken from −∞.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Lib

/-- The f32 word `0xFF800000` denotes −∞, the least extended real. -/
theorem negInf_f32 : Ideal.ofBits .f32 0xFF800000#32 = (⊥ : EReal) := by
  simp [Ideal.ofBits, Ideal.ieee]

/-- A `vector.multi_reduction <maximumf>` of an f32 array [a, b, c] over its middle axis with accumulator −∞, read at
    (p, o) at the ideal values, is the running maximum from ⊥ over `k : Fin b` of the array at (p, k, o) — for any
    extents. -/
theorem maximumf_axis1_apply {a b c : ℕ} (src : FVec Ideal ⟨3, ![a, b, c]⟩ .f32)
    (h : Shape.Reduces ⟨3, ![a, b, c]⟩ [1] ⟨2, ![a, c]⟩) (hφ : FKind.Formats .f32)
    (hacc : (0xFF800000#32 : BitVec 32) = FKind.maximumf.neutral .f32 hφ) (p : Fin a) (o : Fin c) :
    multiReduction .maximumf [1] ⟨2, ![a, c]⟩ src 0xFF800000#32 h hφ hacc (ix2 p o)
      = (Finset.univ : Finset (Fin b)).fold max ⊥ (fun k => src (ix3 p k o)) := by
  refine (Ideal.multiReduction_maximumf_single src _ h hφ hacc (ix2 p o)).trans ?_
  show (Finset.univ : Finset (Fin b)).fold max (Ideal.ofBits .f32 0xFF800000#32) (fun k => src (h.lift (ix2 p o) k)) = _
  have inserted : ∀ k : Fin b, h.lift (ix2 p o) k = ix3 p k o := fun k =>
    funext fun ax => Fin.ext (by match ax with | ⟨0, _⟩ => rfl | ⟨1, _⟩ => rfl | ⟨2, _⟩ => rfl)
  rw [negInf_f32]
  exact Finset.fold_congr fun k _ => congrArg src (inserted k)

end Cert.Lib

end
-- ==== Proof.RefG.lean ====
/-
  The reference computes the specification.

  Its program is a straight line of array operations: two contractions with a bias and a tanh between them give
  the scores [2048, 64, 1]; the maximum over the token axis from −∞ (jax takes one more maximum with −∞, which
  changes nothing), the subtraction, the exponential, the sum over the token axis from zero and the quotient give
  the weights; the weights broadcast along the width, times the tokens, summed over the token axis from zero, give
  the pooled vectors. Read index by index, stage by stage, these are the specification's score, top, ex, tot,
  weight and pooled of the sequence the index names.
-/
import proofs.«160763_j32401233281111_2_alg».proof.Proof.Gen.ReferenceIdeal.Read
import proofs.«160763_j32401233281111_2_alg».proof.Proof.Out
import proofs.«160763_j32401233281111_2_alg».proof.Proof.LibMaxAxis1
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S2048x64x512, .f32⟩ : BufTy).Contents (Elt Ideal)) (x1 : (⟨S512x16, .f32⟩ : BufTy).Contents (Elt Ideal)) (x2 : (⟨S16, .f32⟩ : BufTy).Contents (Elt Ideal)) (x3 : (⟨S16x1, .f32⟩ : BufTy).Contents (Elt Ideal))

/-- The scores. -/
theorem scores_apply (b : Fin 2048) (n : Fin 64) :
    val_main_v5 (F := Ideal) x0 x1 x2 x3 (ix3 b n (0 : Fin 1)) = score (w1Of x1) (b1Of x2) (w2Of x3) (rowOf x0 b) n := by
  rw [val_main_v5_apply]
  unfold Spec.score
  refine Finset.sum_congr rfl fun h _ => ?_
  refine congrArg₂ (· * ·) ?_ ?_
  · rw [val_main_v4_apply, val_main_v3_apply]
    show Ideal.tanh (val_main_v0 (F := Ideal) x0 x1 _ + val_main_v2 (F := Ideal) x2 _) = _
    unfold Spec.hidden
    refine congrArg Ideal.tanh (congrArg₂ (· + ·) ?_ ?_)
    · rw [val_main_v0_apply]
      refine Finset.sum_congr rfl fun d _ => ?_
      refine congrArg₂ (· * ·) (congrArg x0 ?_) (congrArg x1 ?_)
      · funext a; apply Fin.ext
        match a with
        | ⟨0, _⟩ => rfl
        | ⟨1, _⟩ => rfl
        | ⟨2, _⟩ => rfl
      · funext a; apply Fin.ext
        match a with
        | ⟨0, _⟩ => rfl
        | ⟨1, _⟩ => rfl
    · rw [val_main_v2_apply, val_main_v1_apply]
      refine congrArg x2 ?_
      funext a; apply Fin.ext
      match a with
      | ⟨0, _⟩ => rfl
  · refine congrArg x3 ?_
    funext a; apply Fin.ext
    match a with
    | ⟨0, _⟩ => rfl
    | ⟨1, _⟩ => rfl

/-- The largest score of a sequence. -/
theorem top_apply (b : Fin 2048) :
    val_main_v8 (F := Ideal) x0 x1 x2 x3 (ix2 b (0 : Fin 1)) = top (w1Of x1) (b1Of x2) (w2Of x3) (rowOf x0 b) := by
  rw [val_main_v8_apply, val_main_v7_apply]
  show max (Ideal.ofBits .f32 0xFF800000#32) (val_main_v6 (F := Ideal) x0 x1 x2 x3 (ix2 b (0 : Fin 1))) = _
  rw [Cert.Lib.negInf_f32, max_bot_left]
  unfold val_main_v6
  have hR : S2048x64x1.Reduces [1] S2048x1 := by decide
  rw [Host.reduce_eq_fold_single FloatOps.maximumf _ _ reducesTo_S2048x64x1_S2048x1_d1 hR h_S_]
  show (Finset.univ : Finset (Fin 64)).fold max (Ideal.ofBits .f32 0xFF800000#32)
    (fun k => val_main_v5 (F := Ideal) x0 x1 x2 x3 (hR.lift (ix2 b (0 : Fin 1)) k)) = _
  rw [Cert.Lib.negInf_f32]
  unfold Spec.top
  refine Finset.fold_congr fun k _ => ?_
  refine (congrArg (val_main_v5 (F := Ideal) x0 x1 x2 x3) (funext fun a => Fin.ext ?_)).trans (scores_apply x0 x1 x2 x3 b k)
  match a with
  | ⟨0, _⟩ => rfl
  | ⟨1, _⟩ => rfl
  | ⟨2, _⟩ => rfl

/-- The exponentials. -/
theorem ex_apply (b : Fin 2048) (n : Fin 64) :
    val_main_v12 (F := Ideal) x0 x1 x2 x3 (ix3 b n (0 : Fin 1)) = ex (w1Of x1) (b1Of x2) (w2Of x3) (rowOf x0 b) n := by
  rw [val_main_v12_apply, val_main_v11_apply, val_main_v10_apply, val_main_v9_apply]
  show Ideal.exp (val_main_v5 (F := Ideal) x0 x1 x2 x3 (ix3 b n (0 : Fin 1))
    - val_main_v8 (F := Ideal) x0 x1 x2 x3 (idx_main_v9 (idx_main_v10 (ix3 b n (0 : Fin 1))))) = _
  have e : idx_main_v9 (idx_main_v10 (ix3 b n (0 : Fin 1))) = ix2 b (0 : Fin 1) := by
    funext a; apply Fin.ext
    match a with
    | ⟨0, _⟩ => rfl
    | ⟨1, _⟩ => rfl
  rw [e, scores_apply, top_apply]
  rfl

/-- The softmax's denominators. -/
theorem tot_apply (b : Fin 2048) :
    val_main_v13 (F := Ideal) x0 x1 x2 x3 (ix2 b (0 : Fin 1)) = tot (w1Of x1) (b1Of x2) (w2Of x3) (rowOf x0 b) := by
  rw [val_main_v13_apply, val_main_cst_1_apply]
  show Ideal.ofBits .f32 0x00000000#32 + _ = _
  rw [Ideal.ofBits_zero_f32, zero_add]
  unfold Spec.tot
  refine Finset.sum_congr rfl fun k _ => ?_
  refine (congrArg (val_main_v12 (F := Ideal) x0 x1 x2 x3) (funext fun a => Fin.ext ?_)).trans (ex_apply x0 x1 x2 x3 b k)
  match a with
  | ⟨0, _⟩ => rfl
  | ⟨1, _⟩ => rfl
  | ⟨2, _⟩ => rfl

/-- The weights. -/
theorem weight_apply (b : Fin 2048) (n : Fin 64) :
    val_main_v16 (F := Ideal) x0 x1 x2 x3 (ix3 b n (0 : Fin 1)) = weight (w1Of x1) (b1Of x2) (w2Of x3) (rowOf x0 b) n := by
  rw [val_main_v16_apply, val_main_v15_apply, val_main_v14_apply]
  show Ideal.div (val_main_v12 (F := Ideal) x0 x1 x2 x3 (ix3 b n (0 : Fin 1)))
    (val_main_v13 (F := Ideal) x0 x1 x2 x3 (idx_main_v14 (idx_main_v15 (ix3 b n (0 : Fin 1))))) = _
  have e : idx_main_v14 (idx_main_v15 (ix3 b n (0 : Fin 1))) = ix2 b (0 : Fin 1) := by
    funext a; apply Fin.ext
    match a with
    | ⟨0, _⟩ => rfl
    | ⟨1, _⟩ => rfl
  rw [e, ex_apply, tot_apply]
  rfl

/-- The pooled vectors. -/
theorem pooled_apply (b : Fin 2048) (d : Fin 512) :
    val_main_v19 (F := Ideal) x0 x1 x2 x3 (ix2 b d) = pooled (w1Of x1) (b1Of x2) (w2Of x3) (rowOf x0 b) d := by
  rw [val_main_v19_apply, val_main_cst_2_apply]
  show Ideal.ofBits .f32 0x00000000#32 + _ = _
  rw [Ideal.ofBits_zero_f32, zero_add]
  unfold Spec.pooled
  refine Finset.sum_congr rfl fun k _ => ?_
  rw [val_main_v18_apply, val_main_v17_apply]
  have e1 : idx_main_v17 (idx_main_v19 (ix2 b d) k) = ix3 b k (0 : Fin 1) := by
    funext a; apply Fin.ext
    match a with
    | ⟨0, _⟩ => rfl
    | ⟨1, _⟩ => rfl
    | ⟨2, _⟩ => rfl
  have e2 : idx_main_v19 (ix2 b d) k = ix3 b k d := by
    funext a; apply Fin.ext
    match a with
    | ⟨0, _⟩ => rfl
    | ⟨1, _⟩ => rfl
    | ⟨2, _⟩ => rfl
  rw [e1, e2, weight_apply]
  rfl

/-- The reference's first result is the specification's pooled array, -/
theorem pooled_eq : val_main_v19 (F := Ideal) x0 x1 x2 x3 = pooledOut x0 x1 x2 x3 := by
  funext i
  obtain ⟨b, d, rfl⟩ : ∃ (b : Fin 2048) (d : Fin 512), i = ix2 b d := ⟨i 0, i 1, eq_ix2 i⟩
  exact pooled_apply x0 x1 x2 x3 b d

/-- and its second the specification's weights. -/
theorem weight_eq : val_main_v16 (F := Ideal) x0 x1 x2 x3 = weightOut x0 x1 x2 x3 := by
  funext i
  obtain ⟨b, n, z, rfl⟩ : ∃ (b : Fin 2048) (n : Fin 64) (z : Fin 1), i = ix3 b n z := ⟨i 0, i 1, i 2, eq_ix3 i⟩
  obtain rfl : z = 0 := Subsingleton.elim _ _
  exact weight_apply x0 x1 x2 x3 b n

end Cert.ReferenceIdeal.RefValue

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.LibSoftmaxAxis1.lean ====
/-
  General reading lemmas for a softmax taken over the MIDDLE axis of a rank-3 array with a trailing unit axis,
  [a, b, 1], as a vector kernel writes it: the maximum over the axis from −∞ (keepdims), subtract, exponentiate,
  the sum over the axis from zero (keepdims), divide. At the ideal values, read at (p, n, 0), the result is
  exp (s p n − M p) / ∑ k, exp (s p k − M p) with M p the running maximum from ⊥ of s p k over k — for any extents.
  Also the sum of a rank-3 f32 array over its middle axis read at an index.
-/
import Idealize.ShloMosaic.PureOps.Ideal
import Idealize.ShloMosaic.PureOps.Ideal.Laws
import Idealize.ShloMosaic.Lib.Pipeline.Value
import Idealize.ShloMosaic.Lib.ValueIdx
import proofs.«160763_j32401233281111_2_alg».proof.Proof.LibKeepdims
import proofs.«160763_j32401233281111_2_alg».proof.Proof.LibMaxAxis1

noncomputable section

open Idealize.ShloMosaic Idealize.ShloMosaic.ValueIdx

namespace Cert.Lib

/-- A `vector.multi_reduction <add>` of an f32 array [a, b, c] over its middle axis with accumulator zero, read at
    (p, o) at the ideal values, is the sum over `k : Fin b` of the array at (p, k, o) — for any extents. -/
theorem add_axis1_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = FKind.add.neutral .f32 hφ) (p : Fin a) (o : Fin c) :
    multiReduction .add [1] ⟨2, ![a, c]⟩ src 0x00000000#32 h hφ hacc (ix2 p o) = ∑ k : Fin b, src (ix3 p k o) := by
  refine (Ideal.multiReduction_add_single src _ h hφ hacc (ix2 p o)).trans ?_
  show ∑ k : Fin b, src (h.lift (ix2 p o) k) = _
  exact Finset.sum_congr rfl fun k _ => congrArg src (funext fun ax => Fin.ext (by
    match ax with | ⟨0, _⟩ => rfl | ⟨1, _⟩ => rfl | ⟨2, _⟩ => rfl))

/-- The running maximum from −∞ of row `p` of an array [a, b, 1] over its middle axis. -/
def rowTop {a b : ℕ} (s : FVec Ideal ⟨3, ![a, b, 1]⟩ .f32) (p : Fin a) : EReal :=
  (Finset.univ : Finset (Fin b)).fold max ⊥ (fun k => s (ix3 p k (0 : Fin 1)))

/-- The softmax of an array [a, b, 1] over its middle axis, as the vector operations spell it. -/
def softmaxAxis1 {a b : ℕ} (s : FVec Ideal ⟨3, ![a, b, 1]⟩ .f32)
    (hr : Shape.Reduces ⟨3, ![a, b, 1]⟩ [1] ⟨2, ![a, 1]⟩) (hφ : FKind.Formats .f32)
    (hmax : (0xFF800000#32 : BitVec 32) = FKind.maximumf.neutral .f32 hφ)
    (hadd : (0x00000000#32 : BitVec 32) = FKind.add.neutral .f32 hφ)
    (hc : (⟨2, ![a, 1]⟩ : Shape).ShapeCasts ⟨3, ![a, 1, 1]⟩)
    (hb : (⟨3, ![a, 1, 1]⟩ : Shape).Broadcasts ⟨3, ![a, b, 1]⟩) : FVec Ideal ⟨3, ![a, b, 1]⟩ .f32 :=
  divf (exp (subf s (broadcastTo ⟨3, ![a, b, 1]⟩ (shapeCast ⟨3, ![a, 1, 1]⟩
        (multiReduction .maximumf [1] ⟨2, ![a, 1]⟩ s 0xFF800000#32 hr hφ hmax) hc) hb)))
    (broadcastTo ⟨3, ![a, b, 1]⟩ (shapeCast ⟨3, ![a, 1, 1]⟩
      (multiReduction .add [1] ⟨2, ![a, 1]⟩ (exp (subf s (broadcastTo ⟨3, ![a, b, 1]⟩ (shapeCast ⟨3, ![a, 1, 1]⟩
        (multiReduction .maximumf [1] ⟨2, ![a, 1]⟩ s 0xFF800000#32 hr hφ hmax) hc) hb))) 0x00000000#32 hr hφ hadd) hc) hb)

/-- Read at (p, n, 0): the exponential of the entry less the row's maximum, over the sum of those exponentials. -/
theorem softmaxAxis1_apply {a b : ℕ} (s : FVec Ideal ⟨3, ![a, b, 1]⟩ .f32)
    (hr : Shape.Reduces ⟨3, ![a, b, 1]⟩ [1] ⟨2, ![a, 1]⟩) (hφ : FKind.Formats .f32)
    (hmax : (0xFF800000#32 : BitVec 32) = FKind.maximumf.neutral .f32 hφ)
    (hadd : (0x00000000#32 : BitVec 32) = FKind.add.neutral .f32 hφ)
    (hc : (⟨2, ![a, 1]⟩ : Shape).ShapeCasts ⟨3, ![a, 1, 1]⟩)
    (hb : (⟨3, ![a, 1, 1]⟩ : Shape).Broadcasts ⟨3, ![a, b, 1]⟩) (p : Fin a) (n : Fin b) :
    softmaxAxis1 s hr hφ hmax hadd hc hb (ix3 p n (0 : Fin 1))
      = Ideal.div (Ideal.exp (s (ix3 p n (0 : Fin 1)) - rowTop s p))
          (∑ k : Fin b, Ideal.exp (s (ix3 p k (0 : Fin 1)) - rowTop s p)) := by
  have hm : ∀ k : Fin b, broadcastTo ⟨3, ![a, b, 1]⟩ (shapeCast ⟨3, ![a, 1, 1]⟩
      (multiReduction .maximumf [1] ⟨2, ![a, 1]⟩ s 0xFF800000#32 hr hφ hmax) hc) hb (ix3 p k (0 : Fin 1)) = rowTop s p :=
    fun k => (Keepdims.castRow_broadcast_apply _ hc hb p k (0 : Fin 1)).trans (maximumf_axis1_apply s hr hφ hmax p 0)
  have he : ∀ k : Fin b, exp (subf s (broadcastTo ⟨3, ![a, b, 1]⟩ (shapeCast ⟨3, ![a, 1, 1]⟩
      (multiReduction .maximumf [1] ⟨2, ![a, 1]⟩ s 0xFF800000#32 hr hφ hmax) hc) hb)) (ix3 p k (0 : Fin 1))
        = Ideal.exp (s (ix3 p k (0 : Fin 1)) - rowTop s p) :=
    fun k => congrArg (fun t => Ideal.exp (s (ix3 p k (0 : Fin 1)) - t)) (hm k)
  unfold softmaxAxis1
  refine (divf_apply _ _ _).trans ?_
  refine congrArg₂ Ideal.div (he n) ?_
  refine (Keepdims.castRow_broadcast_apply _ hc hb p n (0 : Fin 1)).trans ?_
  refine (add_axis1_apply _ hr hφ hadd p 0).trans ?_
  exact Finset.sum_congr rfl fun k _ => he k

end Cert.Lib

end
-- ==== Proof.KPay.lean ====
/-
  The kernel body's arithmetic, read at an index at the ideal values.

  At one grid point the body holds a block of 64 sequences: the tokens `x0` [64, 64, 512], the first layer's
  weights `x1` [512, 16], its bias as a row `x2` [1, 16], the read-out's weights as a column `x3` [16, 1]. It
  flattens the tokens to 4096 rows (sequence p, token n ↦ row 64 p + n), scores every row with two matrix
  products (a change of float format is the identity here, a matrix product into a zero accumulator is the plain
  sum over the contracted axis), folds the scores back to [64, 64, 1] and takes the softmax along the token axis.
  So, read at (p, n, 0), the first payload is the specification's weight of token n of sequence p of the block.
  One trip of the pooling loop adds, to the running [64, 512] total, the sum over the run's sixteen tokens of
  weight × token.
-/
import proofs.«160763_j32401233281111_2_alg».proof.Proof.Patched.KernelIdeal.Skeleton
import proofs.«160763_j32401233281111_2_alg».proof.Proof.Spec
import proofs.«160763_j32401233281111_2_alg».proof.Proof.LibSoftmaxAxis1
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Cert.KernelIdeal.GenP Idealize.ShloMosaic Idealize.ShloMosaic.ValueIdx

/-- The first matrix product's dimension record, and the second's. -/
abbrev D1 : DotDims S4096x512 S512x16 S4096x16 := dot_S4096x512_S512x16_S4096x16_1_0_0_1_n_n
abbrev D2 : DotDims S4096x16 S16x1 S4096x1 := dot_S4096x16_S16x1_S4096x1_1_0_0_1_n_n

/-- Row 64 p + n of the flattened block: token n of sequence p. -/
def flat (p n : Fin 64) : Fin 4096 := ⟨p.val * 64 + n.val, by have := p.isLt; have := n.isLt; omega⟩

/-- The block of one sequence as the specification takes it. -/
def seq (x0 : FVec Ideal S64x64x512 .f32) (p : Fin 64) : Fin 64 → Fin 512 → EReal := fun n d => x0 (ix3 p n d)

/-- The weights as the specification takes them. -/
def w1 (x1 : FVec Ideal S512x16 .bf16) : Fin 512 → Fin 16 → EReal := fun d h => x1 (ix2 d h)
def bias (x2 : FVec Ideal S1x16 .f32) : Fin 16 → EReal := fun h => x2 (ix2 (0 : Fin 1) h)
def w2 (x3 : FVec Ideal S16x1 .bf16) : Fin 16 → EReal := fun h => x3 (ix2 h (0 : Fin 1))

/-- Flattening [64, 64, 512] to [4096, 512] puts (p, n, d) at (64 p + n, d). -/
theorem flatten_apply (v : FVec Ideal S64x64x512 .bf16) (h : S64x64x512.ShapeCasts S4096x512) (p n : Fin 64) (d : Fin 512) :
    shapeCast S4096x512 v h (ix2 (flat p n) d) = v (ix3 p n d) := by
  refine shapeCast_apply v h (ix2 (flat p n) d) (ix3 p n d) ?_
  rw [Shape.rowMajor_val_two, Shape.rowMajor_val_three]
  rfl

/-- Folding [4096, 1] back to [64, 64, 1] reads (p, n, 0) at (64 p + n, 0). -/
theorem fold_apply (v : FVec Ideal S4096x1 .f32) (h : S4096x1.ShapeCasts S64x64x1) (p n : Fin 64) :
    shapeCast S64x64x1 v h (ix3 p n (0 : Fin 1)) = v (ix2 (flat p n) (0 : Fin 1)) := by
  refine shapeCast_apply v h (ix3 p n (0 : Fin 1)) (ix2 (flat p n) (0 : Fin 1)) ?_
  rw [Shape.rowMajor_val_two, Shape.rowMajor_val_three]
  rfl

/-! The operand indices of the two matrix products, coordinate by coordinate. -/

theorem d1_lhs0 (i : S4096x16.Idx) (q : D1.contr.Idx) : (D1.lhsIdx i q 0).val = (i 0).val := by
  unfold DotDims.lhsIdx
  rw [dif_neg (show ¬(0 : Fin S4096x512.rank) ∈ D1.lhsBatch by decide), dif_pos (show (0 : Fin S4096x512.rank) ∈ D1.lhsNonContracting by decide)]
  rfl
theorem d1_lhs1 (i : S4096x16.Idx) (q : D1.contr.Idx) : (D1.lhsIdx i q 1).val = (q ⟨0, by decide⟩).val :=
  D1.lhsIdx_val_of_single rfl i q
theorem d1_rhs0 (i : S4096x16.Idx) (q : D1.contr.Idx) : (D1.rhsIdx i q 0).val = (q ⟨0, by decide⟩).val :=
  D1.rhsIdx_val_of_single rfl i q
theorem d1_rhs1 (i : S4096x16.Idx) (q : D1.contr.Idx) : (D1.rhsIdx i q 1).val = (i 1).val := by
  unfold DotDims.rhsIdx
  rw [dif_neg (show ¬(1 : Fin S512x16.rank) ∈ D1.rhsBatch by decide), dif_pos (show (1 : Fin S512x16.rank) ∈ D1.rhsNonContracting by decide)]
  rfl

theorem d2_lhs0 (i : S4096x1.Idx) (q : D2.contr.Idx) : (D2.lhsIdx i q 0).val = (i 0).val := by
  unfold DotDims.lhsIdx
  rw [dif_neg (show ¬(0 : Fin S4096x16.rank) ∈ D2.lhsBatch by decide), dif_pos (show (0 : Fin S4096x16.rank) ∈ D2.lhsNonContracting by decide)]
  rfl
theorem d2_lhs1 (i : S4096x1.Idx) (q : D2.contr.Idx) : (D2.lhsIdx i q 1).val = (q ⟨0, by decide⟩).val :=
  D2.lhsIdx_val_of_single rfl i q
theorem d2_rhs0 (i : S4096x1.Idx) (q : D2.contr.Idx) : (D2.rhsIdx i q 0).val = (q ⟨0, by decide⟩).val :=
  D2.rhsIdx_val_of_single rfl i q
theorem d2_rhs1 (i : S4096x1.Idx) (q : D2.contr.Idx) : (D2.rhsIdx i q 1).val = (i 1).val := by
  unfold DotDims.rhsIdx
  rw [dif_neg (show ¬(1 : Fin S16x1.rank) ∈ D2.rhsBatch by decide), dif_pos (show (1 : Fin S16x1.rank) ∈ D2.rhsNonContracting by decide)]
  rfl

/-- The first matrix product into a zero accumulator, read at (q, h): the sum over the 512 contracted columns. -/
theorem dot1_apply (l : FVec Ideal S4096x512 .bf16) (r : FVec Ideal S512x16 .bf16) (q : Fin 4096) (h : Fin 16) :
    matmul D1 none l r (constant S4096x16 .f32 0x00000000#32) (ix2 q h) = ∑ d : Fin 512, l (ix2 q d) * r (ix2 d h) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 q h) ((contrEquiv1 D1 512 rfl rfl).symm k) = ix2 q k := funext fun a => Fin.ext (by
    match a with
    | ⟨0, _⟩ => exact d1_lhs0 _ _
    | ⟨1, _⟩ => exact (d1_lhs1 _ _).trans hk)
  have er : D1.rhsIdx (ix2 q h) ((contrEquiv1 D1 512 rfl rfl).symm k) = ix2 k h := funext fun a => Fin.ext (by
    match a with
    | ⟨0, _⟩ => exact (d1_rhs0 _ _).trans hk
    | ⟨1, _⟩ => exact d1_rhs1 _ _)
  rw [el, er]

/-- The second matrix product into a zero accumulator, read at (q, 0): the sum over the 16 hidden units. -/
theorem dot2_apply (l : FVec Ideal S4096x16 .bf16) (r : FVec Ideal S16x1 .bf16) (q : Fin 4096) :
    matmul D2 none l r (constant S4096x1 .f32 0x00000000#32) (ix2 q (0 : Fin 1)) = ∑ h : Fin 16, l (ix2 q h) * r (ix2 h (0 : Fin 1)) := by
  simp only [matmul]
  rw [Ideal.matmul_constant_zero_apply, ← Equiv.sum_comp (contrEquiv1 D2 16 rfl rfl).symm]
  refine Finset.sum_congr rfl fun k _ => ?_
  have hk := contrEquiv1_symm_val D2 16 rfl rfl k
  have el : D2.lhsIdx (ix2 q (0 : Fin 1)) ((contrEquiv1 D2 16 rfl rfl).symm k) = ix2 q k := funext fun a => Fin.ext (by
    match a with
    | ⟨0, _⟩ => exact d2_lhs0 _ _
    | ⟨1, _⟩ => exact (d2_lhs1 _ _).trans hk)
  have er : D2.rhsIdx (ix2 q (0 : Fin 1)) ((contrEquiv1 D2 16 rfl rfl).symm k) = ix2 k (0 : Fin 1) := funext fun a => Fin.ext (by
    match a with
    | ⟨0, _⟩ => exact (d2_rhs0 _ _).trans hk
    | ⟨1, _⟩ => exact d2_rhs1 _ _)
  rw [el, er]

/-- The block's scores as the body computes them, [64, 64, 1]. -/
def scores (x0 : FVec Ideal S64x64x512 .f32) (x1 : FVec Ideal S512x16 .bf16) (x2 : FVec Ideal S1x16 .f32) (x3 : FVec Ideal S16x1 .bf16) :
    FVec Ideal S64x64x1 .f32 :=
  shapeCast S64x64x1
    (matmul D2 none
      (truncf .bf16 (tanh (addf
        (matmul D1 none (shapeCast S4096x512 (truncf .bf16 x0 bitsLt_bf16_f32) shapeCasts_S64x64x512_S4096x512)
          (shapeCast S512x16 x1 shapeCasts_S512x16_S512x16) (constant S4096x16 .f32 0x00000000#32))
        (broadcastTo S4096x16 (shapeCast S1x16 x2 shapeCasts_S1x16_S1x16) broadcasts_S1x16_S4096x16))) bitsLt_bf16_f32)
      (shapeCast S16x1 x3 shapeCasts_S16x1_S16x1) (constant S4096x1 .f32 0x00000000#32))
    shapeCasts_S4096x1_S64x64x1

/-- Read at (p, n, 0), the body's scores are the specification's score of token n of sequence p. -/
theorem scores_apply (x0 : FVec Ideal S64x64x512 .f32) (x1 : FVec Ideal S512x16 .bf16) (x2 : FVec Ideal S1x16 .f32) (x3 : FVec Ideal S16x1 .bf16)
    (p n : Fin 64) :
    scores x0 x1 x2 x3 (ix3 p n (0 : Fin 1)) = Spec.score (w1 x1) (bias x2) (w2 x3) (seq x0 p) n := by
  unfold scores
  refine (fold_apply _ _ p n).trans ?_
  refine (dot2_apply _ _ (flat p n)).trans ?_
  unfold Spec.score
  refine Finset.sum_congr rfl fun h _ => ?_
  refine congrArg₂ (· * ·) ?_ (congrFun (shapeCast_self x3 shapeCasts_S16x1_S16x1) (ix2 h (0 : Fin 1)))
  unfold Spec.hidden
  show Ideal.tanh (matmul (F := Ideal) D1 none (shapeCast S4096x512 (truncf .bf16 x0 bitsLt_bf16_f32) shapeCasts_S64x64x512_S4096x512)
        (shapeCast S512x16 x1 shapeCasts_S512x16_S512x16) (constant S4096x16 .f32 0x00000000#32) (ix2 (flat p n) h)
      + broadcastTo S4096x16 (shapeCast S1x16 x2 shapeCasts_S1x16_S1x16) broadcasts_S1x16_S4096x16 (ix2 (flat p n) h)) = _
  refine congrArg Ideal.tanh (congrArg₂ (· + ·) ?_ ?_)
  · refine (dot1_apply _ _ (flat p n) h).trans (Finset.sum_congr rfl fun d _ => ?_)
    refine congrArg₂ (· * ·) ?_ (congrFun (shapeCast_self x1 shapeCasts_S512x16_S512x16) (ix2 d h))
    exact flatten_apply _ _ p n d
  · refine (broadcastTo_1b_ab_apply _ broadcasts_S1x16_S4096x16 (flat p n) h).trans ?_
    exact congrFun (shapeCast_self x2 shapeCasts_S1x16_S1x16) (ix2 (0 : Fin 1) h)

/-- The first payload is the softmax of the scores along the token axis. -/
theorem pay1_eq (x0 : FVec Ideal S64x64x512 .f32) (x1 : FVec Ideal S512x16 .bf16) (x2 : FVec Ideal S1x16 .f32) (x3 : FVec Ideal S16x1 .bf16) :
    k0_pay1 (F := Ideal) x0 x1 x2 x3
      = Cert.Lib.softmaxAxis1 (scores x0 x1 x2 x3) reduces_S64x64x1_S64x1 (.inl rfl) rfl rfl shapeCasts_S64x1_S64x1x1 broadcasts_S64x1x1_S64x64x1 := rfl

/-- The specification's weight of a token, with the block's row maximum spelt as the softmax lemma spells it. -/
theorem weight_eq (x0 : FVec Ideal S64x64x512 .f32) (x1 : FVec Ideal S512x16 .bf16) (x2 : FVec Ideal S1x16 .f32) (x3 : FVec Ideal S16x1 .bf16)
    (p n : Fin 64) :
    k0_pay1 (F := Ideal) x0 x1 x2 x3 (ix3 p n (0 : Fin 1)) = Spec.weight (w1 x1) (bias x2) (w2 x3) (seq x0 p) n := by
  refine (congrFun (pay1_eq x0 x1 x2 x3) (ix3 p n (0 : Fin 1))).trans ?_
  refine (Cert.Lib.softmaxAxis1_apply (scores x0 x1 x2 x3) reduces_S64x64x1_S64x1 (.inl rfl) rfl rfl shapeCasts_S64x1_S64x1x1
    broadcasts_S64x1x1_S64x64x1 p n).trans ?_
  have ht : Cert.Lib.rowTop (scores x0 x1 x2 x3) p = Spec.top (w1 x1) (bias x2) (w2 x3) (seq x0 p) := by
    unfold Cert.Lib.rowTop Spec.top
    exact Finset.fold_congr fun k _ => scores_apply x0 x1 x2 x3 p k
  unfold Spec.weight Spec.tot Spec.ex
  rw [ht, scores_apply]
  refine congrArg (Ideal.div _) (Finset.sum_congr rfl fun k _ => ?_)
  rw [scores_apply]

/-- The scratch's payload (the weights, [64, 64, 1]) and the second output's (the weights laid out [64, 64]). -/
theorem pay2_apply (x0 : FVec Ideal S64x64x512 .f32) (x1 : FVec Ideal S512x16 .bf16) (x2 : FVec Ideal S1x16 .f32) (x3 : FVec Ideal S16x1 .bf16)
    (p n : Fin 64) :
    k0_pay2 (F := Ideal) x0 x1 x2 x3 (ix3 p n (0 : Fin 1)) = Spec.weight (w1 x1) (bias x2) (w2 x3) (seq x0 p) n := by
  unfold k0_pay2
  rw [shapeCast_self]
  exact weight_eq x0 x1 x2 x3 p n

theorem pay3_apply (x0 : FVec Ideal S64x64x512 .f32) (x1 : FVec Ideal S512x16 .bf16) (x2 : FVec Ideal S1x16 .f32) (x3 : FVec Ideal S16x1 .bf16)
    (p n : Fin 64) :
    k0_pay3 (F := Ideal) x0 x1 x2 x3 (ix2 p n) = Spec.weight (w1 x1) (bias x2) (w2 x3) (seq x0 p) n := by
  unfold k0_pay3
  refine (shapeCast_apply _ shapeCasts_S64x64x1_S64x64 (ix2 p n) (ix3 p n (0 : Fin 1)) ?_).trans (weight_eq x0 x1 x2 x3 p n)
  rw [Shape.rowMajor_val_two, Shape.rowMajor_val_three]
  show (p.val * 64 + n.val) * 1 + 0 = p.val * 64 + n.val
  omega

/-- The pooling loop starts from zero. -/
theorem pay4_apply (i : S64x512.Idx) : k0_pay4 (F := Ideal) i = 0 := by
  show Ideal.ofBits .f32 0x00000000#32 = 0
  exact Ideal.ofBits_zero_f32

/-- One trip of the pooling loop, read at (p, d): the running total plus the sum over the run's sixteen tokens of
    weight × token. -/
theorem pay5_apply (acc : FVec Ideal S64x512 .f32) (z : FVec Ideal S64x16x512 .f32) (b : FVec Ideal S64x16x1 .f32) (p : Fin 64) (d : Fin 512) :
    k0_pay5 (F := Ideal) acc z b (ix2 p d) = acc (ix2 p d) + ∑ j : Fin 16, b (ix3 p j (0 : Fin 1)) * z (ix3 p j d) := by
  unfold k0_pay5
  refine congrArg (acc (ix2 p d) + ·) ?_
  refine (Cert.Lib.add_axis1_apply _ reduces_S64x16x512_S64x512 (.inl rfl) rfl p d).trans ?_
  refine Finset.sum_congr rfl fun j _ => ?_
  refine congrArg (· * z (ix3 p j d)) ?_
  refine broadcastTo_apply b broadcasts_S64x16x1_S64x16x512 (ix3 p j d) (ix3 p j (0 : Fin 1)) fun ax => ?_
  match ax with
  | ⟨0, _⟩ => rfl
  | ⟨1, _⟩ => rfl
  | ⟨2, _⟩ => rfl

end Cert.KernelIdeal.PayValue

end
-- ==== Proof.KPieces.lean ====
/-
  What one run of the kernel body leaves in its two output blocks, as pure terms of the four input blocks.

  The body stores the weights [64, 64, 1] into its scratch and, re-laid [64, 64], into the second output block; the
  pooling loop then makes four trips, trip k reading tokens 16 k … 16 k + 15 of every sequence from the token block
  and their weights from the scratch, and adding their weighted sum to a running [64, 512] total that starts at
  zero; the total after the fourth trip is stored into the first output block. Each output block is written by
  one store of the whole block, so what the run leaves there is that store's payload.
-/
import proofs.«160763_j32401233281111_2_alg».proof.Proof.Patched.KernelIdeal.Frame
import Idealize.ShloMosaic.Lib.Pipeline.Value

set_option maxRecDepth 16384

noncomputable section

namespace Cert.KernelIdeal.Pieces

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

/-- The loop makes four trips. -/
theorem trips_eq : k0_t1_loop.trips = 4 := by decide

/-- One trip of the pooling loop as a pure step: from the token block `x0` and the scratch's weights `s`, the run
    of tokens the trip's offsets name, through the loop's payload. -/
def step (x0 : Vec F S64x64x512 .f32) (s : Vec F S64x64x1 .f32) (k : Fin k0_t1_loop.trips) (acc : FVec F S64x512 .f32) : FVec F S64x512 .f32 :=
  k0_pay5 acc (View.ld x0 (Rect.unit (s := S64x64x512) (k0_off1 k) S64x16x512.size (k0_off1_inb k)))
    (View.ld s (Rect.unit (s := S64x64x1) (k0_off2 k) S64x16x1.size (k0_off2_inb k)))

/-- The four trips from the loop's initial value. -/
def pooledBlock (x0 : Vec F S64x64x512 .f32) (s : Vec F S64x64x1 .f32) : FVec F S64x512 .f32 :=
  step x0 s ⟨3, by rw [trips_eq]; decide⟩ (step x0 s ⟨2, by rw [trips_eq]; decide⟩ (step x0 s ⟨1, by rw [trips_eq]; decide⟩
    (step x0 s ⟨0, by rw [trips_eq]; decide⟩ (k0_pay4 (F := F)))))

/-- The second output block after the body: the weights, laid out [64, 64]. -/
theorem out5_eq (c : Dev nD) (i : grid0.Coords) (arg1 : Memref sig .tc .vmem S64x64x512 .f32) (harg1 : arg1.IsWhole) (arg2 : Memref sig .tc .vmem S512x16 .bf16) (harg2 : arg2.IsWhole) (arg3 : Memref sig .tc .vmem S1x16 .f32) (harg3 : arg3.IsWhole) (arg4 : Memref sig .tc .vmem S16x1 .bf16) (harg4 : arg4.IsWhole) (arg5 : Memref sig .tc .vmem S64x512 .f32) (harg5 : arg5.IsWhole) (arg6 : Memref sig .tc .vmem S64x64 .f32) (harg6 : arg6.IsWhole) (arg7 : Memref sig .tc .vmem S64x64x1 .f32) (harg7 : arg7.IsWhole) (x0 : Vec F S64x64x512 .f32) (x1 : Vec F S512x16 .bf16) (x2 : Vec F S1x16 .f32) (x3 : Vec F S16x1 .bf16) :
    out0_A_5 c i arg1 harg1 arg2 harg2 arg3 harg3 arg4 harg4 arg5 harg5 arg6 harg6 arg7 harg7 x0 x1 x2 x3 = k0_pay3 x0 x1 x2 x3 := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  unfold kernelRun0_A.sl.H5_1
  rw [View.canon_unit_zero zero2]
  simp only [View.readAt_eq_ld, harg1.read_unread, harg2.read_unread, harg3.read_unread, harg4.read_unread]
  rw [View.ld_unit_zero (S := S64x64x512) zero3, View.ld_unit_zero (S := S512x16) zero2, View.ld_unit_zero (S := S1x16) zero2,
    View.ld_unit_zero (S := S16x1) zero2]

/-- What the scratch holds when the loop starts: the weights [64, 64, 1], read back from the one store that wrote them. -/
theorem scratch_eq (c : Dev nD) (arg1 : Memref sig .tc .vmem S64x64x512 .f32) (harg1 : arg1.IsWhole) (arg2 : Memref sig .tc .vmem S512x16 .bf16) (harg2 : arg2.IsWhole) (arg3 : Memref sig .tc .vmem S1x16 .f32) (harg3 : arg3.IsWhole) (arg4 : Memref sig .tc .vmem S16x1 .bf16) (harg4 : arg4.IsWhole) (arg5 : Memref sig .tc .vmem S64x512 .f32) (harg5 : arg5.IsWhole) (arg6 : Memref sig .tc .vmem S64x64 .f32) (harg6 : arg6.IsWhole) (arg7 : Memref sig .tc .vmem S64x64x1 .f32) (harg7 : arg7.IsWhole) (x0 : Vec F S64x64x512 .f32) (x1 : Vec F S512x16 .bf16) (x2 : Vec F S1x16 .f32) (x3 : Vec F S16x1 .bf16) :
    arg7.view.read (Elt F) (arg7.view.writes (Elt F) arg7.view.junk (kernelRun0_A.sl.HS0_1 c arg1 harg1 arg2 harg2 arg3 harg3 arg4 harg4 x0 x1 x2 x3))
      = k0_pay2 x0 x1 x2 x3 := by
  unfold kernelRun0_A.sl.HS0_1
  rw [View.read_writes_eq_canon _ _ _ (fun y => ⟨_, List.mem_singleton_self _, View.mem_set_unit_zero zero3 inb_S64x64x1_S64x64x1_0_0_0 y⟩)]
  rw [View.canon_unit_zero zero3]
  simp only [View.readAt_eq_ld, harg1.read_unread, harg2.read_unread, harg3.read_unread, harg4.read_unread]
  rw [View.ld_unit_zero (S := S64x64x512) zero3, View.ld_unit_zero (S := S512x16) zero2, View.ld_unit_zero (S := S1x16) zero2,
    View.ld_unit_zero (S := S16x1) zero2]

/-- One trip's result, opened once: the loop's payload of the running total and the trip's two loads. -/
theorem trip_eq (c : Dev nD) (i : grid0.Coords) (arg1 : Memref sig .tc .vmem S64x64x512 .f32) (harg1 : arg1.IsWhole) (arg2 : Memref sig .tc .vmem S512x16 .bf16) (harg2 : arg2.IsWhole) (arg3 : Memref sig .tc .vmem S1x16 .f32) (harg3 : arg3.IsWhole) (arg4 : Memref sig .tc .vmem S16x1 .bf16) (harg4 : arg4.IsWhole) (arg5 : Memref sig .tc .vmem S64x512 .f32) (harg5 : arg5.IsWhole) (arg6 : Memref sig .tc .vmem S64x64 .f32) (harg6 : arg6.IsWhole) (arg7 : Memref sig .tc .vmem S64x64x1 .f32) (harg7 : arg7.IsWhole) (X1 : BufTy.Contents (Elt F) arg1.view.ty) (X7 : BufTy.Contents (Elt F) arg7.view.ty)
    (k : Fin k0_t1_loop.trips) (acc : FVec F S64x512 .f32) :
    tripR_k0_t1 (F := F) Variants.none c none i arg1 harg1 arg2 harg2 arg3 harg3 arg4 harg4 arg5 harg5 arg6 harg6 arg7 harg7 X1 X7 k acc
      = step (arg1.view.read (Elt F) X1) (arg7.view.read (Elt F) X7) k acc := by
  unfold tripR_k0_t1 trip_k0_t1
  rfl

/-- The running total after trip `n` is the trip's step of the total before it. -/
theorem st_succ (c : Dev nD) (i : grid0.Coords) (arg1 : Memref sig .tc .vmem S64x64x512 .f32) (harg1 : arg1.IsWhole) (arg2 : Memref sig .tc .vmem S512x16 .bf16) (harg2 : arg2.IsWhole) (arg3 : Memref sig .tc .vmem S1x16 .f32) (harg3 : arg3.IsWhole) (arg4 : Memref sig .tc .vmem S16x1 .bf16) (harg4 : arg4.IsWhole) (arg5 : Memref sig .tc .vmem S64x512 .f32) (harg5 : arg5.IsWhole) (arg6 : Memref sig .tc .vmem S64x64 .f32) (harg6 : arg6.IsWhole) (arg7 : Memref sig .tc .vmem S64x64x1 .f32) (harg7 : arg7.IsWhole) (X1 : BufTy.Contents (Elt F) arg1.view.ty) (X7 : BufTy.Contents (Elt F) arg7.view.ty)
    (init : FVec F S64x512 .f32) (n : ℕ) (hn : n < k0_t1_loop.trips) :
    st_k0_t1 (F := F) Variants.none c none i arg1 harg1 arg2 harg2 arg3 harg3 arg4 harg4 arg5 harg5 arg6 harg6 arg7 harg7 X1 X7 init (n + 1)
      = step (arg1.view.read (Elt F) X1) (arg7.view.read (Elt F) X7) ⟨n, hn⟩
          (st_k0_t1 (F := F) Variants.none c none i arg1 harg1 arg2 harg2 arg3 harg3 arg4 harg4 arg5 harg5 arg6 harg6 arg7 harg7 X1 X7 init n) :=
  (st_k0_t1_succ Variants.none c none i arg1 harg1 arg2 harg2 arg3 harg3 arg4 harg4 arg5 harg5 arg6 harg6 arg7 harg7 X1 X7 init ⟨n, hn⟩).trans
    (trip_eq c i arg1 harg1 arg2 harg2 arg3 harg3 arg4 harg4 arg5 harg5 arg6 harg6 arg7 harg7 X1 X7 ⟨n, hn⟩ _)

/-- The first output block after the body: the total after the four trips. -/
theorem out4_eq (c : Dev nD) (i : grid0.Coords) (arg1 : Memref sig .tc .vmem S64x64x512 .f32) (harg1 : arg1.IsWhole) (arg2 : Memref sig .tc .vmem S512x16 .bf16) (harg2 : arg2.IsWhole) (arg3 : Memref sig .tc .vmem S1x16 .f32) (harg3 : arg3.IsWhole) (arg4 : Memref sig .tc .vmem S16x1 .bf16) (harg4 : arg4.IsWhole) (arg5 : Memref sig .tc .vmem S64x512 .f32) (harg5 : arg5.IsWhole) (arg6 : Memref sig .tc .vmem S64x64 .f32) (harg6 : arg6.IsWhole) (arg7 : Memref sig .tc .vmem S64x64x1 .f32) (harg7 : arg7.IsWhole) (x0 : Vec F S64x64x512 .f32) (x1 : Vec F S512x16 .bf16) (x2 : Vec F S1x16 .f32) (x3 : Vec F S16x1 .bf16) :
    out0_A_4 c i arg1 harg1 arg2 harg2 arg3 harg3 arg4 harg4 arg5 harg5 arg6 harg6 arg7 harg7 x0 x1 x2 x3 = pooledBlock x0 (k0_pay2 x0 x1 x2 x3) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_unit_zero zero2]
  show st_k0_t1 Variants.none c none i arg1 harg1 arg2 harg2 arg3 harg3 arg4 harg4 arg5 harg5 arg6 harg6 arg7 harg7 _ _ k0_pay4 (3 + 1) = _
  refine (st_succ c i arg1 harg1 arg2 harg2 arg3 harg3 arg4 harg4 arg5 harg5 arg6 harg6 arg7 harg7 _ _ _ 3 (by rw [trips_eq]; decide)).trans ?_
  refine (congrArg (step _ _ _) ((st_succ c i arg1 harg1 arg2 harg2 arg3 harg3 arg4 harg4 arg5 harg5 arg6 harg6 arg7 harg7 _ _ _ 2 (by rw [trips_eq]; decide)).trans
    (congrArg (step _ _ _) ((st_succ c i arg1 harg1 arg2 harg2 arg3 harg3 arg4 harg4 arg5 harg5 arg6 harg6 arg7 harg7 _ _ _ 1 (by rw [trips_eq]; decide)).trans
      (congrArg (step _ _ _) (st_succ c i arg1 harg1 arg2 harg2 arg3 harg3 arg4 harg4 arg5 harg5 arg6 harg6 arg7 harg7 _ _ _ 0 (by rw [trips_eq]; decide))))))).trans ?_
  rw [harg1.read_unread, scratch_eq c arg1 harg1 arg2 harg2 arg3 harg3 arg4 harg4 arg5 harg5 arg6 harg6 arg7 harg7 x0 x1 x2 x3]
  rfl

end Cert.KernelIdeal.Pieces

end
-- ==== Proof.KBlock.lean ====
/-
  What one grid point of the kernel writes back, in terms of the argument arrays.

  Grid point t stages sequences 64 t … 64 t + 63 of the token array (window 0) and the whole of the three parameter
  arrays (windows 1–3: the first layer's weights and the read-out's weights after a change of float format, which is
  the identity at the ideal values, and the bias re-laid as a row). The four trips of the pooling loop, each a
  partial sum over sixteen tokens added to a running total from zero, add up to the sum over all 64 tokens
  (`Spec.sum_runs`). So the block written back through window 4 is rows 64 t … of the specification's pooled array
  and the block written back through window 5 is rows 64 t … of its weights laid out [2048, 64].
-/
import proofs.«160763_j32401233281111_2_alg».proof.Proof.Patched.KernelIdeal.Frame
import proofs.«160763_j32401233281111_2_alg».proof.Proof.KPay
import proofs.«160763_j32401233281111_2_alg».proof.Proof.KPieces
import proofs.«160763_j32401233281111_2_alg».proof.Proof.Out
import Idealize.ShloMosaic.Lib.Pipeline.Value
import Idealize.ShloMosaic.Lib.StableHlo.Run
import Idealize.ShloMosaic.Lib.ValueLayout

set_option maxRecDepth 16384

noncomputable section

namespace Cert.KernelIdeal.BlockValue

open Cert.KernelIdeal Cert.KernelIdeal.Gen Cert.KernelIdeal.GenP Cert.KernelIdeal.PayValue Cert.KernelIdeal.Pieces
open Idealize.ShloMosaic Idealize.ShloMosaic.TcCoe Idealize.SL.Sem Idealize.ShloMosaic.ValueIdx
open Idealize.ShloMosaic.Pipeline (Dat)

/-! ## The pooling loop at an index -/

/-- Trip k of the pooling loop, read at (p, d): the running total plus the weighted sum of tokens 16 k … 16 k + 15. -/
theorem step_apply (x0 : FVec Ideal S64x64x512 .f32) (s : FVec Ideal S64x64x1 .f32) (k : Fin k0_t1_loop.trips) (k' : Fin 4)
    (hk : k'.val = k.val) (acc : FVec Ideal S64x512 .f32) (p : Fin 64) (d : Fin 512) :
    step (F := Ideal) x0 s k acc (ix2 p d)
      = acc (ix2 p d) + ∑ j : Fin 16, s (ix3 p (Spec.tok k' j) (0 : Fin 1)) * x0 (ix3 p (Spec.tok k' j) d) := by
  unfold step
  refine (pay5_apply acc _ _ p d).trans ?_
  refine congrArg (acc (ix2 p d) + ·) (Finset.sum_congr rfl fun j _ => ?_)
  have e1 : k0_off1 k = ![0, 16 * k.val, 0] := k0_off1_eq k
  have e2 : k0_off2 k = ![0, 16 * k.val, 0] := k0_off2_eq k
  refine congrArg₂ (· * ·) (congrArg s (funext fun a => Fin.ext ?_)) (congrArg x0 (funext fun a => Fin.ext ?_))
  · match a with
    | ⟨0, _⟩ => show k0_off2 k 0 + 1 * p.val = p.val; rw [e2]; show 0 + 1 * p.val = p.val; omega
    | ⟨1, _⟩ => show k0_off2 k 1 + 1 * j.val = 16 * k'.val + j.val; rw [e2, hk]; show 16 * k.val + 1 * j.val = _; omega
    | ⟨2, _⟩ => show k0_off2 k 2 + 1 * 0 = 0; rw [e2]; rfl
  · match a with
    | ⟨0, _⟩ => show k0_off1 k 0 + 1 * p.val = p.val; rw [e1]; show 0 + 1 * p.val = p.val; omega
    | ⟨1, _⟩ => show k0_off1 k 1 + 1 * j.val = 16 * k'.val + j.val; rw [e1, hk]; show 16 * k.val + 1 * j.val = _; omega
    | ⟨2, _⟩ => show k0_off1 k 2 + 1 * d.val = d.val; rw [e1]; show 0 + 1 * d.val = d.val; omega

/-- The four trips from zero, read at (p, d): the weighted sum over all 64 tokens. -/
theorem pooledBlock_apply (x0 : FVec Ideal S64x64x512 .f32) (s : FVec Ideal S64x64x1 .f32) (p : Fin 64) (d : Fin 512) :
    pooledBlock (F := Ideal) x0 s (ix2 p d) = ∑ n : Fin 64, s (ix3 p n (0 : Fin 1)) * x0 (ix3 p n d) := by
  unfold pooledBlock
  have t3 := step_apply x0 s ⟨3, by rw [trips_eq]; decide⟩ 3 rfl
  have t2 := step_apply x0 s ⟨2, by rw [trips_eq]; decide⟩ 2 rfl
  have t1 := step_apply x0 s ⟨1, by rw [trips_eq]; decide⟩ 1 rfl
  have t0 := step_apply x0 s ⟨0, by rw [trips_eq]; decide⟩ 0 rfl
  rw [t3, t2, t1, t0, pay4_apply]
  exact Spec.sum_runs (fun n => s (ix3 p n (0 : Fin 1)) * x0 (ix3 p n d))

/-! ## A block's results from the block's inputs -/

section block
variable (x0 : FVec Ideal S64x64x512 .f32) (x1 : FVec Ideal S512x16 .bf16) (x2 : FVec Ideal S1x16 .f32) (x3 : FVec Ideal S16x1 .bf16)
  (X : Fin 64 → Fin 64 → Fin 512 → EReal) (W1 : Fin 512 → Fin 16 → EReal) (B1 : Fin 16 → EReal) (W2 : Fin 16 → EReal)
  (h0 : ∀ p n d, x0 (ix3 p n d) = X p n d) (h1 : ∀ d h, x1 (ix2 d h) = W1 d h) (h2 : ∀ h, x2 (ix2 (0 : Fin 1) h) = B1 h)
  (h3 : ∀ h, x3 (ix2 h (0 : Fin 1)) = W2 h)
include h0 h1 h2 h3

/-- If the four input blocks hold sequences `X` and parameters `W1`, `B1`, `W2`, the second output block holds the
    sequences' weights, -/
theorem weights_of_block (p n : Fin 64) :
    k0_pay3 (F := Ideal) x0 x1 x2 x3 (ix2 p n) = Spec.weight W1 B1 W2 (X p) n := by
  have e0 : seq x0 p = X p := funext fun n => funext fun d => h0 p n d
  have e1 : w1 x1 = W1 := funext fun d => funext fun h => h1 d h
  have e2 : bias x2 = B1 := funext fun h => h2 h
  have e3 : w2 x3 = W2 := funext fun h => h3 h
  rw [pay3_apply, e0, e1, e2, e3]

/-- and the first their pooled vectors. -/
theorem pooled_of_block (p : Fin 64) (d : Fin 512) :
    pooledBlock (F := Ideal) x0 (k0_pay2 (F := Ideal) x0 x1 x2 x3) (ix2 p d) = Spec.pooled W1 B1 W2 (X p) d := by
  have e0 : seq x0 p = X p := funext fun n => funext fun d => h0 p n d
  have e1 : w1 x1 = W1 := funext fun d => funext fun h => h1 d h
  have e2 : bias x2 = B1 := funext fun h => h2 h
  have e3 : w2 x3 = W2 := funext fun h => h3 h
  rw [pooledBlock_apply]
  unfold Spec.pooled
  refine Finset.sum_congr rfl fun n _ => ?_
  rw [pay2_apply, e0, e1, e2, e3, h0]

end block

end Cert.KernelIdeal.BlockValue

end
-- ==== Proof.KArr.lean ====
/-
  The kernel's windows read off the argument arrays.

  When the region is entered the token array is as launched; the first layer's weights and the read-out's weights
  have been through a change of float format (the identity at the ideal values) and the bias has been re-laid
  [16] → [1, 16]. Window 0's block at grid point t is sequences 64 t … 64 t + 63 of the token array; windows 1–3
  stage their whole arrays at every point.
-/
import proofs.«160763_j32401233281111_2_alg».proof.Proof.Patched.KernelIdeal.Frame
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.ArrValue

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-- The grid has 32 points. -/
theorem N_eq : cfg0.N = 32 := N_0

/-- Sequence 64 t + p of the token array: row p of grid point t's block. -/
def seqIx (t : Fin cfg0.N) (p : Fin 64) : Fin 2048 :=
  ⟨64 * t.val + p.val, by have := t.isLt; have := p.isLt; have hN : cfg0.N = 32 := N_0; omega⟩

/-- The printed index maps over the grid: window 0's block index is (t, 0, 0); windows 1–3 stay at block (0, 0);
    the output windows' block index is (t, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- What the host lines before the region leave in the three re-laid parameter arrays. -/
theorem V_v0 (c : Dev nD) :
    (V m c main_v0 : S512x16.Idx → EReal) = (truncf (F := Ideal) .bf16 (m ((c : Thread nD τ).loc main_arg1) : FVec Ideal S512x16 .f32) bitsLt_bf16_f32 : FVec Ideal S512x16 .bf16) := by
  show StableHlo.after hostOps0 (fun b => m (c, b)) (Proc.devRef .tc main_v0) = _
  after_results

theorem V_v1 (c : Dev nD) :
    (V m c main_v1 : S16x1.Idx → EReal) = (truncf (F := Ideal) .bf16 (m ((c : Thread nD τ).loc main_arg3) : FVec Ideal S16x1 .f32) bitsLt_bf16_f32 : FVec Ideal S16x1 .bf16) := by
  show StableHlo.after hostOps0 (fun b => m (c, b)) (Proc.devRef .tc main_v1) = _
  after_results

theorem V_v2 (c : Dev nD) :
    (V m c main_v2 : S1x16.Idx → EReal) = shapeCast S1x16 (m ((c : Thread nD τ).loc main_arg2) : FVec Ideal S16 .f32) shapeCasts_S16_S1x16 := by
  show StableHlo.after hostOps0 (fun b => m (c, b)) (Proc.devRef .tc main_v2) = _
  after_results
  rfl

/-- Window 0's block at point t: sequences 64 t … 64 t + 63 of the token array. -/
theorem iblk0_apply (c : Dev nD) (t : Fin cfg0.N) (p n : Fin 64) (d : Fin 512) :
    (iblk m c 0 t : Vec Ideal S64x64x512 .f32) (ix3 p n d)
      = (m ((c : Thread nD τ).loc main_arg0) : S2048x64x512.Idx → EReal) (ix3 (seqIx t p) n d) := by
  obtain ⟨i0, i1, i2⟩ := idx0 t
  unfold iblk
  rw [View.read_apply]
  show V m c main_arg0 _ = _
  rw [V_main_arg0]
  congr 1
  funext a
  apply Fin.ext
  match a with
  | ⟨0, _⟩ => show win0_0.index t 0 * 64 + 1 * p.val = 64 * t.val + p.val; rw [i0]; omega
  | ⟨1, _⟩ => show win0_0.index t 1 * 64 + 1 * n.val = n.val; rw [i1]; omega
  | ⟨2, _⟩ => show win0_0.index t 2 * 512 + 1 * d.val = d.val; rw [i2]; omega

/-- Window 1's block at any point: the first layer's weights. -/
theorem iblk1_apply (c : Dev nD) (t : Fin cfg0.N) (d : Fin 512) (h : Fin 16) :
    (iblk m c 1 t : Vec Ideal S512x16 .bf16) (ix2 d h)
      = (m ((c : Thread nD τ).loc main_arg1) : S512x16.Idx → EReal) (ix2 d h) := by
  obtain ⟨i0, i1⟩ := idx1 t
  unfold iblk
  rw [View.read_apply]
  show V m c main_v0 _ = _
  rw [V_v0]
  show (m ((c : Thread nD τ).loc main_arg1) : S512x16.Idx → EReal) _ = _
  congr 1
  funext a
  apply Fin.ext
  match a with
  | ⟨0, _⟩ => show win0_1.index t 0 * 512 + 1 * d.val = d.val; rw [i0]; omega
  | ⟨1, _⟩ => show win0_1.index t 1 * 16 + 1 * h.val = h.val; rw [i1]; omega

/-- Window 2's block at any point: the bias as a row. -/
theorem iblk2_apply (c : Dev nD) (t : Fin cfg0.N) (h : Fin 16) :
    (iblk m c 2 t : Vec Ideal S1x16 .f32) (ix2 (0 : Fin 1) h)
      = (m ((c : Thread nD τ).loc main_arg2) : S16.Idx → EReal) (ix1 h) := by
  obtain ⟨i0, i1⟩ := idx2 t
  unfold iblk
  rw [View.read_apply]
  show V m c main_v2 _ = _
  rw [V_v2]
  refine shapeCast_apply _ shapeCasts_S16_S1x16 _ (ix1 h) ?_
  rw [Shape.rowMajor_val_one, Shape.rowMajor_val_two]
  show h.val = (win0_2.index t 0 * 1 + 1 * 0) * 16 + (win0_2.index t 1 * 16 + 1 * h.val)
  rw [i0, i1]; omega

/-- Window 3's block at any point: the read-out's weights. -/
theorem iblk3_apply (c : Dev nD) (t : Fin cfg0.N) (h : Fin 16) :
    (iblk m c 3 t : Vec Ideal S16x1 .bf16) (ix2 h (0 : Fin 1))
      = (m ((c : Thread nD τ).loc main_arg3) : S16x1.Idx → EReal) (ix2 h (0 : Fin 1)) := by
  obtain ⟨i0, i1⟩ := idx3 t
  unfold iblk
  rw [View.read_apply]
  show V m c main_v1 _ = _
  rw [V_v1]
  show (m ((c : Thread nD τ).loc main_arg3) : S16x1.Idx → EReal) _ = _
  congr 1
  funext a
  apply Fin.ext
  match a with
  | ⟨0, _⟩ => show win0_3.index t 0 * 16 + 1 * h.val = h.val; rw [i0]; omega
  | ⟨1, _⟩ => show win0_3.index t 1 * 1 + 1 * 0 = 0; rw [i1]

end Cert.KernelIdeal.ArrValue

end
-- ==== Proof.KFinal.lean ====
/-
  The kernel's run, read: its two results as the specification's arrays.

  Every grid point writes back, through window 4, its 64 rows of the pooled array and, through window 5, its 64
  rows of the weights laid out [2048, 64] (KBlock.lean over the blocks of KArr.lean); the 32 points' row blocks
  tile the two arrays (row b is in point b / 64's block), so after the region each array holds the
  specification's array. The one host line after the region re-lays the weights [2048, 64] → [2048, 64, 1].
-/
import proofs.«160763_j32401233281111_2_alg».proof.Proof.KBlock
import proofs.«160763_j32401233281111_2_alg».proof.Proof.KArr
import Idealize.ShloMosaic.Lib.Pipeline.Value
import Idealize.ShloMosaic.Lib.StableHlo.Run

set_option maxRecDepth 16384

noncomputable section

namespace Cert.KernelIdeal.FinalValue

open Cert.KernelIdeal Cert.KernelIdeal.Gen Cert.KernelIdeal.GenP Cert.KernelIdeal.PayValue Cert.KernelIdeal.Pieces
open Cert.KernelIdeal.BlockValue Cert.KernelIdeal.ArrValue Cert.Spec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The four argument arrays on device `c`, as launched. -/
abbrev A0 (c : Dev nD) : (⟨3, ![2048, 64, 512]⟩ : Shape).Idx → EReal := m ((c : Thread nD τ).loc main_arg0)
abbrev A1 (c : Dev nD) : (⟨2, ![512, 16]⟩ : Shape).Idx → EReal := m ((c : Thread nD τ).loc main_arg1)
abbrev A2 (c : Dev nD) : (⟨1, ![16]⟩ : Shape).Idx → EReal := m ((c : Thread nD τ).loc main_arg2)
abbrev A3 (c : Dev nD) : (⟨2, ![16, 1]⟩ : Shape).Idx → EReal := m ((c : Thread nD τ).loc main_arg3)

/-- Row p of point t's pooled block is row 64 t + p of the pooled array, -/
theorem blk4 (c : Dev nD) (t : Fin cfg0.N) (p : Fin 64) (d : Fin 512) :
    pooledBlock (F := Ideal) (iblk m c 0 t) (k0_pay2 (F := Ideal) (iblk m c 0 t) (iblk m c 1 t) (iblk m c 2 t) (iblk m c 3 t)) (ix2 p d)
      = pooledOut (A0 m c) (A1 m c) (A2 m c) (A3 m c) (ix2 (seqIx t p) d) :=
  pooled_of_block (iblk m c 0 t) (iblk m c 1 t) (iblk m c 2 t) (iblk m c 3 t)
    (fun p => rowOf (A0 m c) (seqIx t p)) (w1Of (A1 m c)) (b1Of (A2 m c)) (w2Of (A3 m c))
    (iblk0_apply m c t) (iblk1_apply m c t) (iblk2_apply m c t) (iblk3_apply m c t) p d

/-- and row p of its weight block is row 64 t + p of the weights. -/
theorem blk5 (c : Dev nD) (t : Fin cfg0.N) (p n : Fin 64) :
    k0_pay3 (F := Ideal) (iblk m c 0 t) (iblk m c 1 t) (iblk m c 2 t) (iblk m c 3 t) (ix2 p n)
      = weightFlat (A0 m c) (A1 m c) (A2 m c) (A3 m c) (ix2 (seqIx t p) n) :=
  weights_of_block (iblk m c 0 t) (iblk m c 1 t) (iblk m c 2 t) (iblk m c 3 t)
    (fun p => rowOf (A0 m c) (seqIx t p)) (w1Of (A1 m c)) (b1Of (A2 m c)) (w2Of (A3 m c))
    (iblk0_apply m c t) (iblk1_apply m c t) (iblk2_apply m c t) (iblk3_apply m c t) p n

/-- What point t writes back through window 4 is its block of the pooled array. -/
theorem flushed4_eq (c : Dev nD) (t : Fin cfg0.N) :
    (dats m 0 c).flushed 4 t = ((cfg0.win 4).blk t).view.read (Elt Ideal) (pooledOut (A0 m c) (A1 m c) (A2 m c) (A3 m c)) := by
  obtain ⟨i0, i1⟩ := idx4 t
  show (cfg0.win 4).cut (grid0.coords t) ((dats m 0 c).after 4 t) = _
  rw [after0_4]
  unfold outsAt0
  dsimp only
  rw [out4_eq]
  funext j
  obtain ⟨p, d, rfl⟩ : ∃ (p : Fin 64) (d : Fin 512), j = ix2 p d := ⟨j 0, j 1, eq_ix2 j⟩
  refine (blk4 m c t p d).trans ?_
  rw [View.read_apply]
  congr 1
  funext a
  apply Fin.ext
  match a with
  | ⟨0, _⟩ => show 64 * t.val + p.val = win0_4.index t 0 * 64 + 1 * p.val; rw [i0]; omega
  | ⟨1, _⟩ => show d.val = win0_4.index t 1 * 512 + 1 * d.val; rw [i1]; omega

/-- What point t writes back through window 5 is its block of the weights. -/
theorem flushed5_eq (c : Dev nD) (t : Fin cfg0.N) :
    (dats m 0 c).flushed 5 t = ((cfg0.win 5).blk t).view.read (Elt Ideal) (weightFlat (A0 m c) (A1 m c) (A2 m c) (A3 m c)) := by
  obtain ⟨i0, i1⟩ := idx5 t
  show (cfg0.win 5).cut (grid0.coords t) ((dats m 0 c).after 5 t) = _
  rw [after0_5]
  unfold outsAt0
  dsimp only
  rw [out5_eq]
  funext j
  obtain ⟨p, n, rfl⟩ : ∃ (p : Fin 64) (n : Fin 64), j = ix2 p n := ⟨j 0, j 1, eq_ix2 j⟩
  refine (blk5 m c t p n).trans ?_
  rw [View.read_apply]
  congr 1
  funext a
  apply Fin.ext
  match a with
  | ⟨0, _⟩ => show 64 * t.val + p.val = win0_5.index t 0 * 64 + 1 * p.val; rw [i0]; omega
  | ⟨1, _⟩ => show n.val = win0_5.index t 1 * 64 + 1 * n.val; rw [i1]; omega

/-- An index of the pooled array is in point t's block iff each coordinate is in the block's range on its axis. -/
theorem mem_blk4 (t : Fin cfg0.N) (i : S2048x512.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v3_0).slice (win0_4.rect t)).set ↔ _
  rw [View.set_slice_whole, Rect.mem_set_unit]
  exact Iff.rfl

theorem mem_blk5 (t : Fin cfg0.N) (i : S2048x64.Idx) :
    i ∈ ((cfg0.win 5).blk t).view.set ↔ ∀ a : Fin 2, win0_5.index t a * S64x64.size a ≤ (i a).val ∧ (i a).val < win0_5.index t a * S64x64.size a + S64x64.size a := by
  show i ∈ ((View.whole main_v3_1).slice (win0_5.rect t)).set ↔ _
  rw [View.set_slice_whole, Rect.mem_set_unit]
  exact Iff.rfl

/-- Row b of the pooled array is in the block of point b / 64. -/
theorem cover4 (i : S2048x512.Idx) : ∃ t : Fin cfg0.N, (cfg0.win 4).flush t = true ∧ i ∈ ((cfg0.win 4).blk t).view.set := by
  have hN : cfg0.N = 32 := N_0
  have h0 : (i 0).val < 2048 := (i 0).isLt
  have h1 : (i 1).val < 512 := (i 1).isLt
  refine ⟨⟨(i 0).val / 64, by omega⟩, flush0_4 _, ?_⟩
  rw [mem_blk4]
  obtain ⟨e0, e1⟩ := idx4 ⟨(i 0).val / 64, by omega⟩
  intro a
  match a with
  | ⟨0, _⟩ =>
    show win0_4.index ⟨(i 0).val / 64, _⟩ 0 * 64 ≤ (i 0).val ∧ (i 0).val < win0_4.index ⟨(i 0).val / 64, _⟩ 0 * 64 + 64
    rw [e0]; show (i 0).val / 64 * 64 ≤ (i 0).val ∧ (i 0).val < (i 0).val / 64 * 64 + 64; omega
  | ⟨1, _⟩ =>
    show win0_4.index ⟨(i 0).val / 64, _⟩ 1 * 512 ≤ (i 1).val ∧ (i 1).val < win0_4.index ⟨(i 0).val / 64, _⟩ 1 * 512 + 512
    rw [e1]; omega

theorem cover5 (i : S2048x64.Idx) : ∃ t : Fin cfg0.N, (cfg0.win 5).flush t = true ∧ i ∈ ((cfg0.win 5).blk t).view.set := by
  have hN : cfg0.N = 32 := N_0
  have h0 : (i 0).val < 2048 := (i 0).isLt
  have h1 : (i 1).val < 64 := (i 1).isLt
  refine ⟨⟨(i 0).val / 64, by omega⟩, flush0_5 _, ?_⟩
  rw [mem_blk5]
  obtain ⟨e0, e1⟩ := idx5 ⟨(i 0).val / 64, by omega⟩
  intro a
  match a with
  | ⟨0, _⟩ =>
    show win0_5.index ⟨(i 0).val / 64, _⟩ 0 * 64 ≤ (i 0).val ∧ (i 0).val < win0_5.index ⟨(i 0).val / 64, _⟩ 0 * 64 + 64
    rw [e0]; show (i 0).val / 64 * 64 ≤ (i 0).val ∧ (i 0).val < (i 0).val / 64 * 64 + 64; omega
  | ⟨1, _⟩ =>
    show win0_5.index ⟨(i 0).val / 64, _⟩ 1 * 64 ≤ (i 1).val ∧ (i 1).val < win0_5.index ⟨(i 0).val / 64, _⟩ 1 * 64 + 64
    rw [e1]; omega

/-- The two arrays after the region. -/
theorem final4 (c : Dev nD) : (dats m 0 c).arrAt 4 cfg0.N = pooledOut (A0 m c) (A1 m c) (A2 m c) (A3 m c) :=
  (dats m 0 c).arrAt_eq_of_cover 4 (pooledOut (A0 m c) (A1 m c) (A2 m c) (A3 m c)) (fun t _ => flushed4_eq m c t) cover4

theorem final5 (c : Dev nD) : (dats m 0 c).arrAt 5 cfg0.N = weightFlat (A0 m c) (A1 m c) (A2 m c) (A3 m c) :=
  (dats m 0 c).arrAt_eq_of_cover 5 (weightFlat (A0 m c) (A1 m c) (A2 m c) (A3 m c)) (fun t _ => flushed5_eq m c t) cover5

end Cert.KernelIdeal.FinalValue

end
-- ==== Proof.KRun.lean ====
/-
  The kernel program's run at the ideal values, with both results named: the pooled array as the region leaves it,
  the weights after the one host line that follows the region (a re-lay [2048, 64] → [2048, 64, 1]), and the four
  arguments as launched.
-/
import proofs.«160763_j32401233281111_2_alg».proof.Proof.KFinal
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.GenP
open Cert.KernelIdeal.FinalValue Cert.Spec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The weights laid out [2048, 64], re-laid [2048, 64, 1], are the weights [2048, 64, 1]. -/
theorem relay (a0 : (⟨3, ![2048, 64, 512]⟩ : Shape).Idx → EReal) (a1 : (⟨2, ![512, 16]⟩ : Shape).Idx → EReal)
    (a2 : (⟨1, ![16]⟩ : Shape).Idx → EReal) (a3 : (⟨2, ![16, 1]⟩ : Shape).Idx → EReal) (h : S2048x64.ShapeCasts S2048x64x1) :
    shapeCast S2048x64x1 (weightFlat a0 a1 a2 a3) h = weightOut a0 a1 a2 a3 := by
  funext i
  obtain ⟨b, n, z, rfl⟩ : ∃ (b : Fin 2048) (n : Fin 64) (z : Fin 1), i = ix3 b n z := ⟨i 0, i 1, i 2, eq_ix3 i⟩
  refine (shapeCast_apply _ h (ix3 b n z) (ix2 b n) ?_).trans rfl
  rw [Shape.rowMajor_val_two, Shape.rowMajor_val_three]
  show b.val * 64 + n.val = (b.val * 64 + n.val) * 1 + z.val
  have := z.isLt
  omega

/-- The second result after the host line that follows the region. -/
theorem tail_v4 (c : Dev nD) :
    Pipeline.afterTail₀ cfgs (dats m) 0 (V0 m) [hostOps1] c main_v4 = weightOut (A0 m c) (A1 m c) (A2 m c) (A3 m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_1)
      = weightFlat (A0 m c) (A1 m c) (A2 m c) (A3 m c) :=
    (Pipeline.withArrays_arr spec0 launch0.win.arr_inj c _ _ 5).trans (final5 m c)
  refine Eq.trans ?_ (relay (A0 m c) (A1 m c) (A2 m c) (A3 m c) shapeCasts_S2048x64_S2048x64x1)
  exact congrArg (fun X => shapeCast S2048x64x1 X shapeCasts_S2048x64_S2048x64x1) e

-- the frame run's post is stated through the pipeline's configuration: reading its conjuncts at this program's
-- references takes unfolding plain definitions in a metavariable's type
set_option backward.isDefEq.respectTransparency.types false in
/-- Every weakly fair execution of the kernel program terminates with the first result at the specification's
    pooled array, the second at its weights, and the arguments as launched. -/
theorem run : θ_run defs (onTc (τ := τ) (main (F := Ideal))) ⟨m, fun _ => 0, ρ⟩ (fun r => ∀ c : Dev nD,
      r.2.mem ((c.tc : Thread nD τ).loc main_v3_0) = pooledOut (A0 m c) (A1 m c) (A2 m c) (A3 m c)
      ∧ r.2.mem ((c.tc : Thread nD τ).loc main_v4) = weightOut (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).2 main_v4 (Pipeline.mem_restRefs_of main_v4 (by decide) (by decide))).trans (tail_v4 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  Attention pooling: the kernel against its jnp reference, equal at the ideal values.

  For each of 2048 sequences of 64 tokens of width 512 both programs score every token with a two-layer scorer
  (tanh (x · W1 + b1) · W2), take the softmax of the sequence's scores over its tokens, and return the weights and
  the weighted sum of the tokens (Proof/Spec.lean states this for one sequence, Proof/Out.lean for the arrays).
  The kernel does it 64 sequences per grid point: a change of float format in front of its two matrix products is
  the identity on the extended reals, a matrix product into a zero accumulator is the plain contraction, and its
  pooled sum runs over the tokens in four runs of sixteen added to a running total from zero, which is the sum
  over all 64 tokens because addition of extended reals is commutative and associative. No step needs the inputs
  finite, so the precondition is never opened.

  The three frames: the two kernel programs' are their frame certificates (each grid point's body runs, faults
  nothing and leaves the argument arrays alone); the reference's is its generated run with the results dropped. The ideal pass rewrote nothing,
  so `preserves` is `True`. `algebraic`: the kernel's run read as the specification's two arrays
  (Proof/KRun.lean) beside the reference's run read as the same two arrays (Proof/RefG.lean) of arguments that agree.
-/
import proofs.«160763_j32401233281111_2_alg».proof.Defs
import proofs.«160763_j32401233281111_2_alg».proof.Proof.Gen.Kernel
import proofs.«160763_j32401233281111_2_alg».proof.Proof.Gen.Kernel.Launch
import proofs.«160763_j32401233281111_2_alg».proof.Proof.Gen.Kernel.Points
import proofs.«160763_j32401233281111_2_alg».proof.Proof.Patched.Kernel.Frame
import proofs.«160763_j32401233281111_2_alg».proof.Proof.Gen.KernelIdeal
import proofs.«160763_j32401233281111_2_alg».proof.Proof.Gen.KernelIdeal.Launch
import proofs.«160763_j32401233281111_2_alg».proof.Proof.Gen.KernelIdeal.Points
import proofs.«160763_j32401233281111_2_alg».proof.Proof.Patched.KernelIdeal.Frame
import proofs.«160763_j32401233281111_2_alg».proof.Proof.Gen.ReferenceIdeal
import proofs.«160763_j32401233281111_2_alg».proof.Proof.Gen.Pre_finite_inputs
import proofs.«160763_j32401233281111_2_alg».proof.Proof.Gen.ReferenceIdeal.Run
import proofs.«160763_j32401233281111_2_alg».proof.Proof.Gen.ReferenceIdeal.Read
import proofs.«160763_j32401233281111_2_alg».proof.Proof.Spec
import proofs.«160763_j32401233281111_2_alg».proof.Proof.Out
import proofs.«160763_j32401233281111_2_alg».proof.Proof.RefG
import proofs.«160763_j32401233281111_2_alg».proof.Proof.KRun
import Idealize.ShloMosaic.Adequacy
import Idealize.ShloMosaic.Init

noncomputable section

namespace Cert.Proof

open Idealize.ShloMosaic Idealize.SL.Sem Cert.Spec

/-- The word-level kernel program runs and keeps its arguments: the generated frame certificate. -/
theorem frame_k : Cert.frame_Kernel (hKernel := Cert.Kernel.Gen.facts) (hPre_finite_inputs := Cert.Pre_finite_inputs.Gen.facts) :=
  fun m ρ _ => Cert.Kernel.GenP.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its generated run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the four arguments both programs end with the specification's pooled array and
    weights of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => pooledOut (Cert.KernelIdeal.FinalValue.A0 m c) (Cert.KernelIdeal.FinalValue.A1 m c) (Cert.KernelIdeal.FinalValue.A2 m c) (Cert.KernelIdeal.FinalValue.A3 m c),
    fun c => weightOut (Cert.KernelIdeal.FinalValue.A0 m c) (Cert.KernelIdeal.FinalValue.A1 m c) (Cert.KernelIdeal.FinalValue.A2 m c) (Cert.KernelIdeal.FinalValue.A3 m c),
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v19_eq _ _ _ _).trans ((Cert.ReferenceIdeal.RefValue.pooled_eq _ _ _ _).trans ?_)
    rw [(hagree c).1, (hagree c).2.1, (hagree c).2.2.1, (hagree c).2.2.2]
  · refine (Cert.ReferenceIdeal.Read.val_main_v16_eq _ _ _ _).trans ((Cert.ReferenceIdeal.RefValue.weight_eq _ _ _ _).trans ?_)
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
